-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S512x256 : Shape := ⟨2, ![512, 256]⟩
abbrev S256 : Shape := ⟨1, ![256]⟩
abbrev S256x256 : Shape := ⟨2, ![256, 256]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg7 : FVec F S256 .f32) (main_arg8 : FVec F S256x256 .f32) (main_arg9 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg4 : FVec F S512x256 .f32) (main_arg5 : FVec F S256 .f32) (main_arg6 : FVec F S512x256 .f32) (main_arg7 : FVec F S256 .f32) (main_arg8 : FVec F S256x256 .f32) (main_arg9 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S512x256 .f32 := Host.absf main_arg6
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S8x2048x512 .f32) (main_arg1 : FVec F S8x2048x512 .f32) (main_arg2 : FVec F S512x256 .f32) (main_arg3 : FVec F S256 .f32) (main_arg4 : FVec F S512x256 .f32) (main_arg5 : FVec F S256 .f32) (main_arg6 : FVec F S512x256 .f32) (main_arg7 : FVec F S256 .f32) (main_arg8 : FVec F S256x256 .f32) (main_arg9 : FVec F S256 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8x2048x512 .f32 := Host.absf main_arg1
  let main_cst_0 : FVec F S_ .f32 := constant S_ .f32 0x7F800000#32
  let main_v5 : FVec F S8x2048x512 .f32 := broadcastInDim S8x2048x512 ![] bcast_S_S8x2048x512 main_cst_0
  let main_v6 : IVec S8x2048x512 1 := cmpf .olt main_v4 main_v5
  let main_c_1 : IVec S_ 1 := constantI S_ 1 1#1
  let main_v7 : IVec S_ 1 := (fun x v => Host.reduce IntOp.andi x v reducesTo_S8x2048x512_S_d0_1_2 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S8x2048x512 : Shape := ⟨3, ![8, 2048, 512]⟩
abbrev S512x256 : Shape := ⟨2, ![512, 256]⟩
abbrev S256 : Shape := ⟨1, ![256]⟩
abbrev S256x256 : Shape := ⟨2, ![256, 256]⟩
abbrev S1x256 : Shape := ⟨2, ![1, 256]⟩
abbrev S16384x512 : Shape := ⟨2, ![16384, 512]⟩
abbrev S16384x256 : Shape := ⟨2, ![16384, 256]⟩
abbrev S2048x512 : Shape := ⟨2, ![2048, 512]⟩
abbrev S2048x256 : Shape := ⟨2, ![2048, 256]⟩
abbrev S8x2048x256 : Shape := ⟨3, ![8, 2048, 256]⟩
abbrev S1x1024x512 : Shape := ⟨3, ![1, 1024, 512]⟩
abbrev S1x2048x256 : Shape := ⟨3, ![1, 2048, 256]⟩
abbrev S1x1024x256 : Shape := ⟨3, ![1, 1024, 256]⟩
abbrev S1024x512 : Shape := ⟨2, ![1024, 512]⟩
abbrev S1024x256 : Shape := ⟨2, ![1024, 256]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 24
  | .vmem => 22
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S512x256, .f32⟩
  | .hbm, ⟨3, _⟩ => ⟨S256, .f32⟩
  | .hbm, ⟨4, _⟩ => ⟨S512x256, .f32⟩
  | .hbm, ⟨5, _⟩ => ⟨S256, .f32⟩
  | .hbm, ⟨6, _⟩ => ⟨S512x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S512x256, .bf16⟩
  | .hbm, ⟨11, _⟩ => ⟨S512x256, .bf16⟩
  | .hbm, ⟨12, _⟩ => ⟨S512x256, .bf16⟩
  | .hbm, ⟨13, _⟩ => ⟨S256x256, .bf16⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S1x256, .f32⟩
  | .hbm, ⟨18, _⟩ => ⟨S16384x512, .f32⟩
  | .hbm, ⟨19, _⟩ => ⟨S16384x256, .bf16⟩
  | .hbm, ⟨20, _⟩ => ⟨S16384x256, .bf16⟩
  | .hbm, ⟨21, _⟩ => ⟨S8x2048x256, .bf16⟩
  | .hbm, ⟨22, _⟩ => ⟨S8x2048x256, .bf16⟩
  | .hbm, ⟨23, _⟩ => ⟨S8x2048x256, .f32⟩
  | .local _ .vmem, ⟨0, _⟩ => ⟨S2048x512, .f32⟩
  | .local _ .vmem, ⟨1, _⟩ => ⟨S2048x512, .f32⟩
  | .local _ .vmem, ⟨2, _⟩ => ⟨S512x256, .bf16⟩
  | .local _ .vmem, ⟨3, _⟩ => ⟨S1x256, .f32⟩
  | .local _ .vmem, ⟨4, _⟩ => ⟨S512x256, .bf16⟩
  | .local _ .vmem, ⟨5, _⟩ => ⟨S1x256, .f32⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S1x1024x512, .f32⟩
  | .local _ .vmem, ⟨11, _⟩ => ⟨S1x1024x512, .f32⟩
  | .local _ .vmem, ⟨12, _⟩ => ⟨S512x256, .bf16⟩
  | .local _ .vmem, ⟨13, _⟩ => ⟨S1x256, .f32⟩
  | .local _ .vmem, ⟨14, _⟩ => ⟨S1x2048x256, .bf16⟩
  | .local _ .vmem, ⟨15, _⟩ => ⟨S1x2048x256, .bf16⟩
  | .local _ .vmem, ⟨16, _⟩ => ⟨S1x2048x256, .bf16⟩
  | .local _ .vmem, ⟨17, _⟩ => ⟨S1x2048x256, .bf16⟩
  | .local _ .vmem, ⟨18, _⟩ => ⟨S256x256, .bf16⟩
  | .local _ .vmem, ⟨19, _⟩ => ⟨S1x256, .f32⟩
  | .local _ .vmem, ⟨20, _⟩ => ⟨S1x1024x256, .f32⟩
  | .local _ .vmem, ⟨21, _⟩ => ⟨S1x1024x256, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S512x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x2048x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x2048x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x1024x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  bitsLt_bf16_f32 : FTy.bits .bf16 < FTy.bits .f32
  shapeCasts_S256_S1x256 : S256.ShapeCasts S1x256
  shapeCasts_S8x2048x512_S16384x512 : S8x2048x512.ShapeCasts S16384x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  packedbf16_S2048x256_S2048x256_0_0 : (Rect.unit (s := S2048x256) ![0, 0] S2048x256.size inb_S2048x256_S2048x256_0_0).PackedRows (EltTy.packing .bf16)
  shapeCasts_S16384x256_S8x2048x256 : S16384x256.ShapeCasts S8x2048x256
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  broadcasts_S1x256_S1024x256 : S1x256.Broadcasts S1024x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x256 : S1024x1.Broadcasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  dot_S2048x512_S512x256_S2048x256_1_0_0_1_n_n_wf : DotDims.WF S2048x512 S512x256 S2048x256 [1] [0] [0] [1] [] []
  dot_S1024x512_S512x256_S1024x256_1_0_0_1_n_n_wf : DotDims.WF S1024x512 S512x256 S1024x256 [1] [0] [0] [1] [] []
  dot_S1024x256_S2048x256_S1024x2048_1_1_0_0_n_n_wf : DotDims.WF S1024x256 S2048x256 S1024x2048 [1] [1] [0] [0] [] []
  dot_S1024x2048_S2048x256_S1024x256_1_0_0_1_n_n_wf : DotDims.WF S1024x2048 S2048x256 S1024x256 [1] [0] [0] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S16384x256.size a
  hwx0_5 : ∀ i : grid0.Coords, EltTy.bits .bf16 = 32 ∨ (Rect.block (s := S16384x256) S2048x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S16384x256.size a
  hwx0_6 : ∀ i : grid0.Coords, EltTy.bits .bf16 = 32 ∨ (Rect.block (s := S16384x256) S2048x256.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x512.size a ≤ S8x2048x512.size a
  hwx1_0 : ∀ i : grid1.Coords, EltTy.bits .f32 = 32 ∨ (Rect.block (s := S8x2048x512) S1x1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S512x256.size a
  hwx1_1 : ∀ i : grid1.Coords, EltTy.bits .bf16 = 32 ∨ (Rect.block (s := S512x256) S512x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x256.size a ≤ S8x2048x256.size a
  hwx1_3 : ∀ i : grid1.Coords, EltTy.bits .bf16 = 32 ∨ (Rect.block (s := S8x2048x256) S1x2048x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048x256.size a ≤ S8x2048x256.size a
  hwx1_4 : ∀ i : grid1.Coords, EltTy.bits .bf16 = 32 ∨ (Rect.block (s := S8x2048x256) S1x2048x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .bf16 = 32 ∨ (Rect.block (s := S256x256) S256x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1024x256.size a ≤ S8x2048x256.size a
  hwx1_7 : ∀ i : grid1.Coords, EltTy.bits .f32 = 32 ∨ (Rect.block (s := S8x2048x256) S1x1024x256.size (cc1_transform_7 i) (hinb1_7 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_v8) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9_0) S2048x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_1) S2048x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S1x1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x2048x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x2048x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v12) S1x1024x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S8x2048x512 : Shape := ⟨3, ![8, 2048, 512]⟩
abbrev S512x256 : Shape := ⟨2, ![512, 256]⟩
abbrev S256 : Shape := ⟨1, ![256]⟩
abbrev S256x256 : Shape := ⟨2, ![256, 256]⟩
abbrev S8x2048x256 : Shape := ⟨3, ![8, 2048, 256]⟩
abbrev S1x1x256 : Shape := ⟨3, ![1, 1, 256]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 46
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S512x256, .f32⟩
  | .hbm, ⟨3, _⟩ => ⟨S256, .f32⟩
  | .hbm, ⟨4, _⟩ => ⟨S512x256, .f32⟩
  | .hbm, ⟨5, _⟩ => ⟨S256, .f32⟩
  | .hbm, ⟨6, _⟩ => ⟨S512x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S8x2048x256, .f32⟩
  | .hbm, ⟨11, _⟩ => ⟨S1x1x256, .f32⟩
  | .hbm, ⟨12, _⟩ => ⟨S8x2048x256, .f32⟩
  | .hbm, ⟨13, _⟩ => ⟨S8x2048x256, .f32⟩
  | .hbm, ⟨14, _⟩ => ⟨S8x2048x256, .f32⟩
  | .hbm, ⟨15, _⟩ => ⟨S1x1x256, .f32⟩
  | .hbm, ⟨16, _⟩ => ⟨S8x2048x256, .f32⟩
  | .hbm, ⟨17, _⟩ => ⟨S8x2048x256, .f32⟩
  | .hbm, ⟨18, _⟩ => ⟨S8x2048x256, .f32⟩
  | .hbm, ⟨19, _⟩ => ⟨S1x1x256, .f32⟩
  | .hbm, ⟨20, _⟩ => ⟨S8x2048x256, .f32⟩
  | .hbm, ⟨21, _⟩ => ⟨S8x2048x256, .f32⟩
  | .hbm, ⟨22, _⟩ => ⟨S8x2048x2048, .f32⟩
  | .hbm, ⟨23, _⟩ => ⟨S_, .f32⟩
  | .hbm, ⟨24, _⟩ => ⟨S_, .f32⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S_, .f32⟩
  | .hbm, ⟨30, _⟩ => ⟨S8x2048, .f32⟩
  | .hbm, ⟨31, _⟩ => ⟨S8x2048, .f32⟩
  | .hbm, ⟨32, _⟩ => ⟨S8x2048x1, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S8x2048x2048, .f32⟩
  | .hbm, ⟨40, _⟩ => ⟨S8x2048x2048, .f32⟩
  | .hbm, ⟨41, _⟩ => ⟨S8x2048x256, .f32⟩
  | .hbm, ⟨42, _⟩ => ⟨S8x2048x256, .f32⟩
  | .hbm, ⟨43, _⟩ => ⟨S1x1x256, .f32⟩
  | .hbm, ⟨44, _⟩ => ⟨S8x2048x256, .f32⟩
  | .hbm, ⟨45, _⟩ => ⟨S8x2048x256, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S8x2048x256_0_1_2 : S1x1x256.BroadcastsInDim S8x2048x256 (![0, 1, 2] : Fin 3 → Fin S8x2048x256.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x512_S512x256_S8x2048x256_2_0_01_1_n_n_wf : DotDims.WF S8x2048x512 S512x256 S8x2048x256 [2] [0] [0, 1] [1] [] []
  dot_S8x2048x256_S8x2048x256_S8x2048x2048_2_2_1_1_0_0_wf : DotDims.WF S8x2048x256 S8x2048x256 S8x2048x2048 [2] [2] [1] [1] [0] [0]
  dot_S8x2048x2048_S8x2048x256_S8x2048x256_2_1_1_2_0_0_wf : DotDims.WF S8x2048x2048 S8x2048x256 S8x2048x256 [2] [1] [1] [2] [0] [0]
  dot_S8x2048x256_S256x256_S8x2048x256_2_0_01_1_n_n_wf : DotDims.WF S8x2048x256 S256x256 S8x2048x256 [2] [0] [0, 1] [1] [] []

variable [Facts₀]

def dot_S8x2048x512_S512x256_S8x2048x256_2_0_01_1_n_n : DotDims S8x2048x512 S512x256 S8x2048x256 where
  lhsContracting := [2]
  rhsContracting := [0]
  lhsNonContracting := [0, 1]
  rhsNonContracting := [1]
  lhsBatch := []
  rhsBatch := []
  wf := dot_S8x2048x512_S512x256_S8x2048x256_2_0_01_1_n_n_wf
def dot_S8x2048x256_S8x2048x256_S8x2048x2048_2_2_1_1_0_0 : DotDims S8x2048x256 S8x2048x256 S8x2048x2048 where
  lhsContracting := [2]
  rhsContracting := [2]
  lhsNonContracting := [1]
  rhsNonContracting := [1]
  lhsBatch := [0]
  rhsBatch := [0]
  wf := dot_S8x2048x256_S8x2048x256_S8x2048x2048_2_2_1_1_0_0_wf
def dot_S8x2048x2048_S8x2048x256_S8x2048x256_2_1_1_2_0_0 : DotDims S8x2048x2048 S8x2048x256 S8x2048x256 where
  lhsContracting := [2]
  rhsContracting := [1]
  lhsNonContracting := [1]
  rhsNonContracting := [2]
  lhsBatch := [0]
  rhsBatch := [0]
  wf := dot_S8x2048x2048_S8x2048x256_S8x2048x256_2_1_1_2_0_0_wf
def dot_S8x2048x256_S256x256_S8x2048x256_2_0_01_1_n_n : DotDims S8x2048x256 S256x256 S8x2048x256 where
  lhsContracting := [2]
  rhsContracting := [0]
  lhsNonContracting := [0, 1]
  rhsNonContracting := [1]
  lhsBatch := []
  rhsBatch := []
  wf := dot_S8x2048x256_S256x256_S8x2048x256_2_0_01_1_n_n_wf

class Facts : Prop extends Facts₀ where

variable [Facts]
-- ==== Proof.KernelRun.lean ====
/-
  The idealized kernel's run with its RESULT array named.  The program is two kernel regions among host
  reshapes and format changes; every weakly fair execution terminates, the ten argument arrays end as
  launched, and the result array ends at the contents the second region's write-backs leave
  (the fold `Gen.W4` of the run through the program, read at the result's buffer).
-/
import proofs.«113775_j66692252172948_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array then holds what the
    run's fold leaves at its buffer, and the argument arrays are as launched. -/
theorem run : θ_run defs (onTc (τ := τ) (main (F := F))) ⟨m, fun _ => 0, ρ⟩ (fun r => ∀ c : Dev nD,
      r.2.mem ((c.tc : Thread nD τ).loc main_v12) = W4 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v12 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Named

end
-- ==== Proof.LibReadAt.lean ====
/-
  Layout operations, a lane sum and a plain matrix product read at an index given by coordinates, at the extended reals:
  a reshape that merges or splits the two leading axes (row-major: row g·a + i), a vector viewed as a column, a matrix
  under two leading unit axes, a per-row scalar broadcast over a stack of matrices, the sum along the lanes of a matrix,
  and an m×k by k×n product into a zero accumulator.
-/
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReadAt

open Idealize.ShloMosaic Idealize.ShloMosaic.ValueIdx

variable {α : Type}

/-! ## Shape casts that merge or split the two leading axes (row-major: row `g * a + i`) -/

/-- A `[G, a, b]` array cast to `[R, b]` (R = G·a) reads, at row `r = g·a + i` and column `j`, the operand at `(g, i, j)`. -/
theorem shapeCast_gab_rb_apply {G a b R : ℕ} (x : (⟨3, ![G, a, b]⟩ : Shape).Idx → α)
    (h : (⟨3, ![G, a, b]⟩ : Shape).ShapeCasts ⟨2, ![R, b]⟩) (g : Fin G) (i : Fin a) (j : Fin b) (r : Fin R)
    (hr : r.val = g.val * a + i.val) :
    shapeCast ⟨2, ![R, b]⟩ x h (ix2 r j) = x (ix3 g i j) :=
  shapeCast_apply x h _ _ (by
    rw [Shape.rowMajor_val_three, Shape.rowMajor_val_two]
    show (g.val * a + i.val) * b + j.val = r.val * b + j.val
    rw [hr])

/-- An `[R, b]` array cast to `[G, a, b]` (R = G·a) reads, at `(g, i, j)`, the operand at row `r = g·a + i`, column `j`. -/
theorem shapeCast_rb_gab_apply {G a b R : ℕ} (x : (⟨2, ![R, b]⟩ : Shape).Idx → α)
    (h : (⟨2, ![R, b]⟩ : Shape).ShapeCasts ⟨3, ![G, a, b]⟩) (g : Fin G) (i : Fin a) (j : Fin b) (r : Fin R)
    (hr : r.val = g.val * a + i.val) :
    shapeCast ⟨3, ![G, a, b]⟩ x h (ix3 g i j) = x (ix2 r j) :=
  shapeCast_apply x h _ _ (by
    rw [Shape.rowMajor_val_three, Shape.rowMajor_val_two]
    show r.val * b + j.val = (g.val * a + i.val) * b + j.val
    rw [hr])

/-! ## The keepdims column forms -/

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu', Nat.zero_mul, Nat.zero_add])

/-! ## A per-row scalar `[a, 1, 1]` broadcast over `[a, b, c]` -/

theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

/-! ## A sum along the lanes of a matrix -/

/-- The index a one-axis reduction of a matrix along axis 1 inserts the coordinate into. -/
theorem lift_axis1 {a b : ℕ} (h : (⟨2, ![a, b]⟩ : Shape).Reduces [1] ⟨1, ![a]⟩) (r : Fin a) (k : Fin b) :
    h.lift (ix1 r) k = ix2 r k := by
  funext ax; apply Fin.ext
  match ax with
  | ⟨0, _⟩ => rfl
  | ⟨1, _⟩ => rfl

/-- A `vector.multi_reduction <add>` of an `[a, b]` vector along axis 1, at row `r`, is the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction (F := Ideal) .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_axis1 h r k)

/-! ## A plain matrix product into the zero accumulator -/

/-- `[m, k] × [k, n]` into the zero splat, at `(i, j)`: the sum over the contracted coordinate of the products of the entries. -/
theorem matmul_plain_zero_apply {m k n : ℕ} {φ₁ φ₂ : FTy} (prec : Option ContractPrecision)
    (A : FVec Ideal ⟨2, ![m, k]⟩ φ₁) (B : FVec Ideal ⟨2, ![k, n]⟩ φ₂) (i : Fin m) (j : Fin n) :
    matmul (DotDims.plain m k n) prec A B (constant ⟨2, ![m, n]⟩ .f32 0x00000000#32) (ix2 i j)
      = ∑ c : Fin k, A (ix2 i c) * B (ix2 c j) := by
  show FloatOps.matmul _ prec A B _ (ix2 i j) = _
  rw [Ideal.matmul_constant_zero_apply, ← Equiv.sum_comp (contrEquiv1 (DotDims.plain m k n) k rfl rfl).symm]
  refine Finset.sum_congr rfl fun c _ => ?_
  have c2 := contrEquiv1_symm_val (DotDims.plain m k n) k rfl rfl c
  have l2 : (DotDims.plain m k n).lhsIdx (ix2 i j) ((contrEquiv1 _ k rfl rfl).symm c) = ix2 i c := by
    funext ax; apply Fin.ext
    match ax with
    | ⟨0, _⟩ => simp [DotDims.lhsIdx, DotDims.plain]; rfl
    | ⟨1, _⟩ => simp [DotDims.lhsIdx, DotDims.plain]; exact c2
  have r2 : (DotDims.plain m k n).rhsIdx (ix2 i j) ((contrEquiv1 _ k rfl rfl).symm c) = ix2 c j := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.ReadAt

end
-- ==== Proof.AttnSpec.lean ====
/-
  Single-head attention over a batch, as ONE function of the ten argument arrays, on the extended reals.

  For batch entry `n`, query row `s` and output column `g`:
    q, k, v   = the three linear projections  x·W + b  (q of the first feature array, k and v of the second);
    score t   = (Σ_f q[n,s,f] · k[n,t,f]) · (1/16)                     (1/16 written as its binary word);
    m         = the largest score of the row (a fold of `max` from -∞ over the 2048 keys);
    w t       = exp (score t − m);
    a[f]      = (Σ_t w t · v[n,t,f]) / (Σ_t w t);
    out       = (Σ_f a[f] · Wfc[f,g]) + bfc[g].
  The normalisation divides the weighted sum ONCE by the row's total weight.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- `x·W + b` at row `(n, s)`, column `f`: the sum over the 512 input features. -/
def proj (x : FVec Ideal ⟨3, ![8, 2048, 512]⟩ .f32) (w : FVec Ideal ⟨2, ![512, 256]⟩ .f32) (b : FVec Ideal ⟨1, ![256]⟩ .f32)
    (n : Fin 8) (s : Fin 2048) (f : Fin 256) : EReal :=
  (∑ d : Fin 512, x (ix3 n s d) * w (ix2 d f)) + b (ix1 f)

/-- The scaled score of query row `(n, s)` against key row `(n, t)`: the inner product over the 256 features times 1/16. -/
def score (q k : Fin 8 → Fin 2048 → Fin 256 → EReal) (n : Fin 8) (s t : Fin 2048) : EReal :=
  (∑ f : Fin 256, q n s f * k n t f) * Ideal.ofBits .f32 0x3D800000#32

/-- The largest entry of a row of 2048 scores, folded from -∞. -/
def rowMax (sc : Fin 2048 → EReal) : EReal :=
  (Finset.univ : Finset (Fin 2048)).fold max (Ideal.ofBits .f32 0xFF800000#32) sc

/-- The unnormalised softmax weight of key `t`: `exp (score − row maximum)`. -/
def wt (sc : Fin 2048 → EReal) (t : Fin 2048) : EReal := Ideal.exp (sc t - rowMax sc)

/-- One attended feature: the weighted sum of a value column, divided once by the total weight. -/
def attend (sc : Fin 2048 → EReal) (v : Fin 2048 → EReal) : EReal :=
  Ideal.div (∑ t : Fin 2048, wt sc t * v t) (∑ t : Fin 2048, wt sc t)

/-- The attended feature `f` of query row `(n, s)`, from the projected queries, keys and values. -/
def ctx (q k v : Fin 8 → Fin 2048 → Fin 256 → EReal) (n : Fin 8) (s : Fin 2048) (f : Fin 256) : EReal :=
  attend (score q k n s) (fun t => v n t f)

/-- The layer's output at `(n, s, g)`. -/
def outAt (x0 x1 : FVec Ideal ⟨3, ![8, 2048, 512]⟩ .f32)
    (x2 : FVec Ideal ⟨2, ![512, 256]⟩ .f32) (x3 : FVec Ideal ⟨1, ![256]⟩ .f32)
    (x4 : FVec Ideal ⟨2, ![512, 256]⟩ .f32) (x5 : FVec Ideal ⟨1, ![256]⟩ .f32)
    (x6 : FVec Ideal ⟨2, ![512, 256]⟩ .f32) (x7 : FVec Ideal ⟨1, ![256]⟩ .f32)
    (x8 : FVec Ideal ⟨2, ![256, 256]⟩ .f32) (x9 : FVec Ideal ⟨1, ![256]⟩ .f32)
    (n : Fin 8) (s : Fin 2048) (g : Fin 256) : EReal :=
  (∑ f : Fin 256, ctx (proj x0 x2 x3) (proj x1 x4 x5) (proj x1 x6 x7) n s f * x8 (ix2 f g)) + x9 (ix1 g)

/-- The whole output array. -/
def out (x0 x1 : FVec Ideal ⟨3, ![8, 2048, 512]⟩ .f32)
    (x2 : FVec Ideal ⟨2, ![512, 256]⟩ .f32) (x3 : FVec Ideal ⟨1, ![256]⟩ .f32)
    (x4 : FVec Ideal ⟨2, ![512, 256]⟩ .f32) (x5 : FVec Ideal ⟨1, ![256]⟩ .f32)
    (x6 : FVec Ideal ⟨2, ![512, 256]⟩ .f32) (x7 : FVec Ideal ⟨1, ![256]⟩ .f32)
    (x8 : FVec Ideal ⟨2, ![256, 256]⟩ .f32) (x9 : FVec Ideal ⟨1, ![256]⟩ .f32) :
    FVec Ideal ⟨3, ![8, 2048, 256]⟩ .f32 :=
  fun i => outAt x0 x1 x2 x3 x4 x5 x6 x7 x8 x9 (i 0) (i 1) (i 2)

theorem out_ix3 (x0 x1 : FVec Ideal ⟨3, ![8, 2048, 512]⟩ .f32)
    (x2 : FVec Ideal ⟨2, ![512, 256]⟩ .f32) (x3 : FVec Ideal ⟨1, ![256]⟩ .f32)
    (x4 : FVec Ideal ⟨2, ![512, 256]⟩ .f32) (x5 : FVec Ideal ⟨1, ![256]⟩ .f32)
    (x6 : FVec Ideal ⟨2, ![512, 256]⟩ .f32) (x7 : FVec Ideal ⟨1, ![256]⟩ .f32)
    (x8 : FVec Ideal ⟨2, ![256, 256]⟩ .f32) (x9 : FVec Ideal ⟨1, ![256]⟩ .f32)
    (n : Fin 8) (s : Fin 2048) (g : Fin 256) :
    out x0 x1 x2 x3 x4 x5 x6 x7 x8 x9 (ix3 n s g) = outAt x0 x1 x2 x3 x4 x5 x6 x7 x8 x9 n s g := rfl

end Cert.Attn

end
-- ==== Proof.AttnRow.lean ====
/-
  The attention layer one query row at a time.  For a fixed batch entry and query row the output depends on the
  row's projected query (256 numbers), the batch entry's projected keys and values (2048 × 256 each), one column
  of the output projection and one bias entry.  This is the form a kernel computes a tile of; the whole-array
  specification is this function at every row.
-/
import proofs.«113775_j66692252172948_2_alg».proof.Proof.AttnSpec

noncomputable section

namespace Cert.Attn

open Idealize.ShloMosaic Idealize.ShloMosaic.ValueIdx

/-- The scaled scores of one query row against the 2048 key rows. -/
def scoreRow (qrow : Fin 256 → EReal) (k : Fin 2048 → Fin 256 → EReal) (t : Fin 2048) : EReal :=
  (∑ f : Fin 256, qrow f * k t f) * Ideal.ofBits .f32 0x3D800000#32

theorem score_eq_scoreRow (q k : Fin 8 → Fin 2048 → Fin 256 → EReal) (n : Fin 8) (s : Fin 2048) :
    score q k n s = scoreRow (q n s) (k n) := rfl

/-- One output entry from the row's query, the keys, the values, a column of the output projection and a bias entry. -/
def rowOut (qrow : Fin 256 → EReal) (k v : Fin 2048 → Fin 256 → EReal) (w : Fin 256 → EReal) (b : EReal) : EReal :=
  (∑ f : Fin 256, attend (scoreRow qrow k) (fun t => v t f) * w f) + b

theorem outAt_eq_rowOut (x0 x1 : FVec Ideal ⟨3, ![8, 2048, 512]⟩ .f32)
    (x2 : FVec Ideal ⟨2, ![512, 256]⟩ .f32) (x3 : FVec Ideal ⟨1, ![256]⟩ .f32)
    (x4 : FVec Ideal ⟨2, ![512, 256]⟩ .f32) (x5 : FVec Ideal ⟨1, ![256]⟩ .f32)
    (x6 : FVec Ideal ⟨2, ![512, 256]⟩ .f32) (x7 : FVec Ideal ⟨1, ![256]⟩ .f32)
    (x8 : FVec Ideal ⟨2, ![256, 256]⟩ .f32) (x9 : FVec Ideal ⟨1, ![256]⟩ .f32)
    (n : Fin 8) (s : Fin 2048) (g : Fin 256) :
    outAt x0 x1 x2 x3 x4 x5 x6 x7 x8 x9 n s g
      = rowOut (proj x0 x2 x3 n s) (proj x1 x4 x5 n) (proj x1 x6 x7 n) (fun f => x8 (ix2 f g)) (x9 (ix1 g)) := rfl

end Cert.Attn

end
-- ==== Proof.LibColumnBroadcast.lean ====
/-
  A column broadcast along the lanes, read at an index.

  A `[a, 1]` array broadcast to `[a, b]` holds, in every lane of row `p`, the column's entry of row `p`. Shape-generic
  in `a` and `b` and in the element type; the companion of the library's one-row form (`[1, b]` to `[a, b]`).
-/
import Idealize.ShloMosaic.Lib.Pipeline.Value
import Idealize.ShloMosaic.Lib.ValueIdx

namespace Cert.LibColumnBroadcast

open Idealize.ShloMosaic Idealize.ShloMosaic.ValueIdx

/-- A column `[a, 1]` broadcast along the lanes to `[a, b]` reads, at `(p, c)`, the column's entry of row `p`. -/
theorem broadcastTo_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.LibAttnRead.lean ====
/-
  Two more reads at an index, at the extended reals: an m×k by n×k matrix product contracted on the LAST axis of both
  operands (a product with the transpose of the right operand) into a zero accumulator, and the maximum along the
  lanes of a matrix as a fold of `max` over the row.
-/
import Idealize.ShloMosaic.Lib.ValueIdx
import Idealize.ShloMosaic.Lib.Pipeline.Value
import Idealize.ShloMosaic.PureOps.Ideal.Laws

noncomputable section

open scoped BigOperators

namespace Cert.AttnRead

open Idealize.ShloMosaic Idealize.ShloMosaic.ValueIdx

/-- `[m, k] × [n, k]` contracted on both last axes into the zero splat, at `(i, j)`: the inner product of row `i` of the
    left operand with row `j` of the right. -/
theorem matmul_transposedRhs_zero_apply {m k n : ℕ} {φ₁ φ₂ : FTy} (prec : Option ContractPrecision)
    (A : FVec Ideal ⟨2, ![m, k]⟩ φ₁) (B : FVec Ideal ⟨2, ![n, k]⟩ φ₂) (i : Fin m) (j : Fin n) :
    matmul (DotDims.transposedRhs m k n) prec A B (constant ⟨2, ![m, n]⟩ .f32 0x00000000#32) (ix2 i j)
      = ∑ c : Fin k, A (ix2 i c) * B (ix2 j c) := by
  show FloatOps.matmul _ prec A B _ (ix2 i j) = _
  rw [Ideal.matmul_constant_zero_apply, ← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 i j) ((contrEquiv1 _ k rfl rfl).symm c) = ix2 i c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 i j) ((contrEquiv1 _ k rfl rfl).symm c) = ix2 j c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The index a one-axis reduction of a matrix along axis 1 inserts the coordinate into. -/
theorem lift_lane {a b : ℕ} (h : (⟨2, ![a, b]⟩ : Shape).Reduces [1] ⟨1, ![a]⟩) (r : Fin a) (k : Fin b) :
    h.lift (ix1 r) k = ix2 r k := by
  funext ax; apply Fin.ext
  match ax with
  | ⟨0, _⟩ => rfl
  | ⟨1, _⟩ => rfl

/-- A `vector.multi_reduction <maximumf>` of an `[a, b]` vector along axis 1, at row `r`, is the fold of `max` from the
    accumulator's value over the row. -/
theorem laneMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction (F := Ideal) .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (Finset.fold max (Ideal.ofBits φ acc) · Finset.univ) (funext fun k => congrArg src (lift_lane h r k))

end Cert.AttnRead

end
-- ==== Proof.KernelPay.lean ====
/-
  What the two kernel bodies store, read at an index, on the extended reals.

  The first body stores, for a tile of 2048 rows of the flattened second feature array, the two projections
  `x·W + b` (keys and values).  The second body stores, for a tile of 1024 query rows of one batch entry, the attention
  output: project the queries, score them against all 2048 keys (inner product times 1/16), subtract the row maximum,
  exponentiate, sum the weights, form the weighted sum of the values, divide it once by the total weight, and apply
  the output projection and bias.  Changes of float format are the identity here, so each stored entry is exactly the
  row-wise formula `Cert.Attn.rowOut`.
-/
import proofs.«113775_j66692252172948_2_alg».proof.Proof.Gen.KernelIdeal.Skeleton
import proofs.«113775_j66692252172948_2_alg».proof.Proof.LibReadAt
import proofs.«113775_j66692252172948_2_alg».proof.Proof.LibColumnBroadcast
import proofs.«113775_j66692252172948_2_alg».proof.Proof.LibAttnRead
import proofs.«113775_j66692252172948_2_alg».proof.Proof.AttnRow
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx
open Cert.ReadAt Cert.LibColumnBroadcast Cert.AttnRead

/-! ## The key / value projection tile -/

/-- The stored key tile at `(p, q)`: row `p` of the feature tile times column `q` of the weights, plus the bias. -/
theorem kpay_apply (x0 : Vec Ideal S2048x512 .f32) (x1 : Vec Ideal S512x256 .bf16) (x2 : Vec Ideal S1x256 .f32) (p : Fin 2048) (q : Fin 256) :
    k0_pay2 x0 x1 x2 (ix2 p q) = (∑ d : Fin 512, x0 (ix2 p d) * x1 (ix2 d q)) + x2 (ix2 (0 : Fin 1) q) := by
  unfold k0_pay2 k0_pay1
  show matmul (F := Ideal) (DotDims.plain 2048 512 256) none (truncf .bf16 (shapeCast S2048x512 x0 shapeCasts_S2048x512_S2048x512) bitsLt_bf16_f32) (shapeCast S512x256 x1 shapeCasts_S512x256_S512x256) (constant ⟨2, ![2048, 256]⟩ .f32 0x00000000#32) (ix2 p q)
      + broadcastTo S2048x256 (shapeCast S1x256 x2 shapeCasts_S1x256_S1x256) broadcasts_S1x256_S2048x256 (ix2 p q) = _
  rw [matmul_plain_zero_apply, broadcastTo_1b_ab_apply, shapeCast_self, shapeCast_self, shapeCast_self]
  rfl

/-- The stored value tile: the same formula with the value weights and bias. -/
theorem vpay_apply (x0 : Vec Ideal S2048x512 .f32) (x3 : Vec Ideal S512x256 .bf16) (x4 : Vec Ideal S1x256 .f32) (p : Fin 2048) (q : Fin 256) :
    k0_pay3 x0 x3 x4 (ix2 p q) = (∑ d : Fin 512, x0 (ix2 p d) * x3 (ix2 d q)) + x4 (ix2 (0 : Fin 1) q) := by
  unfold k0_pay3 k0_pay1
  show matmul (F := Ideal) (DotDims.plain 2048 512 256) none (truncf .bf16 (shapeCast S2048x512 x0 shapeCasts_S2048x512_S2048x512) bitsLt_bf16_f32) (shapeCast S512x256 x3 shapeCasts_S512x256_S512x256) (constant ⟨2, ![2048, 256]⟩ .f32 0x00000000#32) (ix2 p q)
      + broadcastTo S2048x256 (shapeCast S1x256 x4 shapeCasts_S1x256_S1x256) broadcasts_S1x256_S2048x256 (ix2 p q) = _
  rw [matmul_plain_zero_apply, broadcastTo_1b_ab_apply, shapeCast_self, shapeCast_self, shapeCast_self]
  rfl

/-! ## The attention tile, stage by stage -/

section Attn
variable (x0 : FVec Ideal S1x1024x512 .f32) (x1 : FVec Ideal S512x256 .bf16) (x2 : FVec Ideal S1x256 .f32)
  (x3 x4 : FVec Ideal S1x2048x256 .bf16) (x5 : FVec Ideal S256x256 .bf16) (x6 : FVec Ideal S1x256 .f32)

/-- The projected queries of the tile. -/
def qB : FVec Ideal S1024x256 .bf16 :=
  truncf .bf16 (addf (matmul dot_S1024x512_S512x256_S1024x256_1_0_0_1_n_n none (truncf .bf16 (shapeCast S1024x512 x0 shapeCasts_S1x1024x512_S1024x512) bitsLt_bf16_f32) (shapeCast S512x256 x1 shapeCasts_S512x256_S512x256) (constant S1024x256 .f32 0x00000000#32)) (broadcastTo S1024x256 (shapeCast S1x256 x2 shapeCasts_S1x256_S1x256) broadcasts_S1x256_S1024x256)) bitsLt_bf16_f32

/-- The scaled scores of the tile's rows against the 2048 keys. -/
def sB : FVec Ideal S1024x2048 .f32 :=
  mulf (matmul dot_S1024x256_S2048x256_S1024x2048_1_1_0_0_n_n none (qB x0 x1 x2) (shapeCast S2048x256 x3 shapeCasts_S1x2048x256_S2048x256) (constant S1024x2048 .f32 0x00000000#32)) (broadcast S1024x2048 (Scalar.ofBits .f32 0x3D800000#32))

/-- Each row's maximum score, repeated along the row. -/
def mB : FVec Ideal S1024x2048 .f32 :=
  broadcastTo S1024x2048 (shapeCast S1024x1 (multiReduction .maximumf [1] S1024 (sB x0 x1 x2 x3) 0xFF800000#32 reduces_S1024x2048_S1024 (.inl rfl) rfl) shapeCasts_S1024_S1024x1) broadcasts_S1024x1_S1024x2048

/-- The unnormalised weights. -/
def pB : FVec Ideal S1024x2048 .f32 := exp (subf (sB x0 x1 x2 x3) (mB x0 x1 x2 x3))

/-- Each row's total weight, repeated along the 256 features. -/
def lB : FVec Ideal S1024x256 .f32 :=
  broadcastTo S1024x256 (shapeCast S1024x1 (multiReduction .add [1] S1024 (pB x0 x1 x2 x3) 0x00000000#32 reduces_S1024x2048_S1024 (.inl rfl) rfl) shapeCasts_S1024_S1024x1) broadcasts_S1024x1_S1024x256

/-- The attended features: the weighted sum of the values divided by the total weight. -/
def aB : FVec Ideal S1024x256 .bf16 :=
  truncf .bf16 (divf (matmul dot_S1024x2048_S2048x256_S1024x256_1_0_0_1_n_n none (truncf .bf16 (pB x0 x1 x2 x3) bitsLt_bf16_f32) (shapeCast S2048x256 x4 shapeCasts_S1x2048x256_S2048x256) (constant S1024x256 .f32 0x00000000#32)) (lB x0 x1 x2 x3)) bitsLt_bf16_f32

/-- The body's output-projection product is the product of the attended features with the output weights. -/
theorem k1_pay2_eq : k1_pay2 x0 x1 x2 x3 x4 x5
    = matmul (F := Ideal) dot_S1024x256_S256x256_S1024x256_1_0_0_1_n_n none (aB x0 x1 x2 x3 x4) (shapeCast S256x256 x5 shapeCasts_S256x256_S256x256) (constant S1024x256 .f32 0x00000000#32) := by
  unfold k1_pay2 aB lB pB mB sB qB
  rfl

/-- The tile's projected query at `(r, f)`. -/
def qrow (r : Fin 1024) (f : Fin 256) : EReal := (∑ d : Fin 512, x0 (ix3 (0 : Fin 1) r d) * x1 (ix2 d f)) + x2 (ix2 (0 : Fin 1) f)

theorem qB_apply (r : Fin 1024) (f : Fin 256) : qB x0 x1 x2 (ix2 r f) = qrow x0 x1 x2 r f := by
  unfold qB qrow
  show matmul (F := Ideal) (DotDims.plain 1024 512 256) none (truncf .bf16 (shapeCast S1024x512 x0 shapeCasts_S1x1024x512_S1024x512) bitsLt_bf16_f32) (shapeCast S512x256 x1 shapeCasts_S512x256_S512x256) (constant ⟨2, ![1024, 256]⟩ .f32 0x00000000#32) (ix2 r f)
      + broadcastTo S1024x256 (shapeCast S1x256 x2 shapeCasts_S1x256_S1x256) broadcasts_S1x256_S1024x256 (ix2 r f) = _
  rw [matmul_plain_zero_apply, broadcastTo_1b_ab_apply, shapeCast_self, shapeCast_self]
  refine congrArg (· + x2 (ix2 (0 : Fin 1) f)) (Finset.sum_congr rfl fun d _ => ?_)
  exact congrArg (· * x1 (ix2 d f)) (shapeCast_1ab_ab_apply x0 shapeCasts_S1x1024x512_S1024x512 r d)

/-- The keys of the tile's batch entry, as a function of key row and feature. -/
def krows (t : Fin 2048) (f : Fin 256) : EReal := x3 (ix3 (0 : Fin 1) t f)

theorem sB_apply (r : Fin 1024) (t : Fin 2048) :
    sB x0 x1 x2 x3 (ix2 r t) = Cert.Attn.scoreRow (qrow x0 x1 x2 r) (krows x3) t := by
  unfold sB Cert.Attn.scoreRow krows
  show matmul (F := Ideal) (DotDims.transposedRhs 1024 256 2048) none (qB x0 x1 x2) (shapeCast S2048x256 x3 shapeCasts_S1x2048x256_S2048x256) (constant ⟨2, ![1024, 2048]⟩ .f32 0x00000000#32) (ix2 r t)
      * Ideal.ofBits .f32 0x3D800000#32 = _
  rw [matmul_transposedRhs_zero_apply]
  refine congrArg (· * Ideal.ofBits .f32 0x3D800000#32) (Finset.sum_congr rfl fun f _ => ?_)
  rw [qB_apply, shapeCast_1ab_ab_apply]

theorem mB_apply (r : Fin 1024) (t : Fin 2048) :
    mB x0 x1 x2 x3 (ix2 r t) = Cert.Attn.rowMax (Cert.Attn.scoreRow (qrow x0 x1 x2 r) (krows x3)) := by
  unfold mB Cert.Attn.rowMax
  rw [broadcastTo_column_apply, shapeCast_a_a1_apply]
  refine (laneMax_apply (sB x0 x1 x2 x3) 0xFF800000#32 reduces_S1024x2048_S1024 (.inl rfl) rfl r).trans ?_
  exact congrArg (Finset.fold max _ · Finset.univ) (funext fun k => sB_apply x0 x1 x2 x3 r k)

theorem pB_apply (r : Fin 1024) (t : Fin 2048) :
    pB x0 x1 x2 x3 (ix2 r t) = Cert.Attn.wt (Cert.Attn.scoreRow (qrow x0 x1 x2 r) (krows x3)) t := by
  unfold pB Cert.Attn.wt
  show Ideal.exp (sB x0 x1 x2 x3 (ix2 r t) - mB x0 x1 x2 x3 (ix2 r t)) = _
  rw [sB_apply, mB_apply]

theorem lB_apply (r : Fin 1024) (f : Fin 256) :
    lB x0 x1 x2 x3 (ix2 r f) = ∑ t : Fin 2048, Cert.Attn.wt (Cert.Attn.scoreRow (qrow x0 x1 x2 r) (krows x3)) t := by
  unfold lB
  rw [broadcastTo_column_apply, shapeCast_a_a1_apply]
  refine (laneSum_apply (pB x0 x1 x2 x3) 0x00000000#32 reduces_S1024x2048_S1024 (.inl rfl) rfl r).trans ?_
  exact Finset.sum_congr rfl fun t _ => pB_apply x0 x1 x2 x3 r t

theorem aB_apply (r : Fin 1024) (f : Fin 256) :
    aB x0 x1 x2 x3 x4 (ix2 r f) = Cert.Attn.attend (Cert.Attn.scoreRow (qrow x0 x1 x2 r) (krows x3)) (fun t => krows x4 t f) := by
  unfold aB Cert.Attn.attend krows
  show Ideal.div (matmul (F := Ideal) (DotDims.plain 1024 2048 256) none (truncf .bf16 (pB x0 x1 x2 x3) bitsLt_bf16_f32) (shapeCast S2048x256 x4 shapeCasts_S1x2048x256_S2048x256) (constant ⟨2, ![1024, 256]⟩ .f32 0x00000000#32) (ix2 r f))
      (lB x0 x1 x2 x3 (ix2 r f)) = _
  rw [matmul_plain_zero_apply, lB_apply]
  refine congrArg (Ideal.div · _) (Finset.sum_congr rfl fun t _ => ?_)
  show pB x0 x1 x2 x3 (ix2 r t) * _ = _
  rw [pB_apply, shapeCast_1ab_ab_apply]
  rfl

/-- THE STORED TILE at `(u, r, g)`: the row-wise attention formula of the tile's row `r`. -/
theorem attn_pay_apply (u : Fin 1) (r : Fin 1024) (g : Fin 256) :
    k1_pay1 (F := Ideal) (k1_pay2 x0 x1 x2 x3 x4 x5) x6 (ix3 u r g)
      = Cert.Attn.rowOut (qrow x0 x1 x2 r) (krows x3) (krows x4) (fun f => x5 (ix2 f g)) (x6 (ix2 (0 : Fin 1) g)) := by
  rw [k1_pay2_eq]
  unfold k1_pay1 Cert.Attn.rowOut
  rw [shapeCast_ab_1ab_apply]
  show matmul (F := Ideal) (DotDims.plain 1024 256 256) none (aB x0 x1 x2 x3 x4) (shapeCast S256x256 x5 shapeCasts_S256x256_S256x256) (constant ⟨2, ![1024, 256]⟩ .f32 0x00000000#32) (ix2 r g)
      + broadcastTo S1024x256 (shapeCast S1x256 x6 shapeCasts_S1x256_S1x256) broadcasts_S1x256_S1024x256 (ix2 r g) = _
  rw [matmul_plain_zero_apply, broadcastTo_1b_ab_apply, shapeCast_self, shapeCast_self]
  refine congrArg (· + x6 (ix2 (0 : Fin 1) g)) (Finset.sum_congr rfl fun f _ => ?_)
  rw [aB_apply]

end Attn

end Cert.KernelIdeal.Pay

end
-- ==== Proof.KvRegion.lean ====
/-
  The first kernel region, read as values: after its eight grid points the two result arrays hold, row by row of the
  flattened [16384, 512] feature array, the key and value projections `x·W + b`.  Point `t` writes rows
  `2048·t … 2048·t + 2047`; the eight tiles cover the arrays.  Stated at any contents `V` of the buffers at the region's
  entry, at the extended reals.
-/
import proofs.«113775_j66692252172948_2_alg».proof.Proof.Gen.KernelIdeal.Frame
import proofs.«113775_j66692252172948_2_alg».proof.Proof.KernelPay

set_option maxRecDepth 16384

noncomputable section

namespace Cert.KernelIdeal.Kv

open Cert.KernelIdeal Cert.KernelIdeal.Gen Cert.KernelIdeal.Pay
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- A projection of the flattened feature array: entry `(k, q)` is row `k` times column `q` of the weights plus the bias. -/
def projAt (a : FVec Ideal S16384x512 .f32) (w : FVec Ideal S512x256 .bf16) (b : FVec Ideal S1x256 .f32)
    (k : Fin 16384) (q : Fin 256) : EReal :=
  (∑ d : Fin 512, a (ix2 k d) * w (ix2 d q)) + b (ix2 (0 : Fin 1) q)

/-- The projected array. -/
def projArr (a : FVec Ideal S16384x512 .f32) (w : FVec Ideal S512x256 .bf16) (b : FVec Ideal S1x256 .f32) :
    FVec Ideal S16384x256 .bf16 := fun i => projAt a w b (i 0) (i 1)

/-- The printed index maps over the grid: the feature window and both result windows move down the rows with the point,
    the weights and biases stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The feature window's block at point `t` is rows `2048·t + p` of the flattened array. -/
theorem feat_apply (c : Dev nD) (t : Fin cfg0.N) (p : Fin 2048) (d : Fin 512) (k : Fin 16384) (hk : k.val = t.val * 2048 + p.val) :
    (iblk0 V c 0 t : Vec Ideal S2048x512 .f32) (ix2 p d) = (V c main_v8 : FVec Ideal S16384x512 .f32) (ix2 k d) := by
  obtain ⟨e0, e1, -⟩ := idx_facts t
  unfold iblk0
  rw [View.read_apply]
  show V c main_v8 _ = V c main_v8 _
  congr 1
  funext a
  apply Fin.ext
  match a with
  | ⟨0, _⟩ => show win0_0.index t (0 : Fin 2) * 2048 + 1 * p.val = k.val; rw [e0, hk]; omega
  | ⟨1, _⟩ => show win0_0.index t (1 : Fin 2) * 512 + 1 * d.val = d.val; rw [e1]; omega

/-- The key weights' window is the whole array at every point. -/
theorem wk_apply (c : Dev nD) (t : Fin cfg0.N) (d : Fin 512) (q : Fin 256) :
    (iblk0 V c 1 t : Vec Ideal S512x256 .bf16) (ix2 d q) = (V c main_v1 : FVec Ideal S512x256 .bf16) (ix2 d q) := by
  obtain ⟨-, -, e0, e1, -⟩ := idx_facts t
  unfold iblk0
  rw [View.read_apply]
  show V c main_v1 _ = V c main_v1 _
  congr 1
  funext a
  apply Fin.ext
  match a with
  | ⟨0, _⟩ => show win0_1.index t (0 : Fin 2) * 512 + 1 * d.val = d.val; rw [e0]; omega
  | ⟨1, _⟩ => show win0_1.index t (1 : Fin 2) * 256 + 1 * q.val = q.val; rw [e1]; omega

theorem bk_apply (c : Dev nD) (t : Fin cfg0.N) (u : Fin 1) (q : Fin 256) :
    (iblk0 V c 2 t : Vec Ideal S1x256 .f32) (ix2 u q) = (V c main_v5 : FVec Ideal S1x256 .f32) (ix2 u q) := by
  obtain ⟨-, -, -, -, e0, e1, -⟩ := idx_facts t
  unfold iblk0
  rw [View.read_apply]
  show V c main_v5 _ = V c main_v5 _
  congr 1
  funext a
  apply Fin.ext
  match a with
  | ⟨0, _⟩ => show win0_2.index t (0 : Fin 2) * 1 + 1 * u.val = u.val; rw [e0]; omega
  | ⟨1, _⟩ => show win0_2.index t (1 : Fin 2) * 256 + 1 * q.val = q.val; rw [e1]; omega

theorem wv_apply (c : Dev nD) (t : Fin cfg0.N) (d : Fin 512) (q : Fin 256) :
    (iblk0 V c 3 t : Vec Ideal S512x256 .bf16) (ix2 d q) = (V c main_v2 : FVec Ideal S512x256 .bf16) (ix2 d q) := by
  obtain ⟨-, -, -, -, -, -, e0, e1, -⟩ := idx_facts t
  unfold iblk0
  rw [View.read_apply]
  show V c main_v2 _ = V c main_v2 _
  congr 1
  funext a
  apply Fin.ext
  match a with
  | ⟨0, _⟩ => show win0_3.index t (0 : Fin 2) * 512 + 1 * d.val = d.val; rw [e0]; omega
  | ⟨1, _⟩ => show win0_3.index t (1 : Fin 2) * 256 + 1 * q.val = q.val; rw [e1]; omega

theorem bv_apply (c : Dev nD) (t : Fin cfg0.N) (u : Fin 1) (q : Fin 256) :
    (iblk0 V c 4 t : Vec Ideal S1x256 .f32) (ix2 u q) = (V c main_v6 : FVec Ideal S1x256 .f32) (ix2 u q) := by
  obtain ⟨-, -, -, -, -, -, -, -, e0, e1, -⟩ := idx_facts t
  unfold iblk0
  rw [View.read_apply]
  show V c main_v6 _ = V c main_v6 _
  congr 1
  funext a
  apply Fin.ext
  match a with
  | ⟨0, _⟩ => show win0_4.index t (0 : Fin 2) * 1 + 1 * u.val = u.val; rw [e0]; omega
  | ⟨1, _⟩ => show win0_4.index t (1 : Fin 2) * 256 + 1 * q.val = q.val; rw [e1]; omega

/-- WHAT POINT `t` WRITES BACK to the key array is block `t` of the key projection of the arrays as the region finds them. -/
theorem flushedK_eq (c : Dev nD) (t : Fin cfg0.N) :
    (dat0 V c).flushed 5 t = ((cfg0.win 5).blk t).view.read (Elt Ideal) (projArr (V c main_v8) (V c main_v1) (V c main_v5)) := by
  have hN : cfg0.N = 8 := N_0
  have ht := t.isLt
  obtain ⟨-, -, -, -, -, -, -, -, -, -, e0, e1, -⟩ := idx_facts t
  show (cfg0.win 5).cut (grid0.coords t) ((dat0 V c).after 5 t) = _
  rw [after0_5]
  unfold out0_5
  rw [View.canon_unit_zero hz2]
  simp only [View.ld_unit_zero (S := S2048x512) hz2, View.ld_unit_zero (S := S512x256) hz2, View.ld_unit_zero (S := S1x256) hz2]
  funext j
  obtain ⟨p, q, rfl⟩ : ∃ (p : Fin 2048) (q : Fin 256), j = ix2 p q := ⟨j 0, j 1, eq_ix2 j⟩
  rw [View.read_apply]
  have hemb : ((cfg0.win 5).blk t).view.emb (ix2 p q) = ix2 (⟨t.val * 2048 + p.val, by omega⟩ : Fin 16384) q := by
    funext a
    apply Fin.ext
    match a with
    | ⟨0, _⟩ => show win0_5.index t (0 : Fin 2) * 2048 + 1 * p.val = t.val * 2048 + p.val; rw [e0]; omega
    | ⟨1, _⟩ => show win0_5.index t (1 : Fin 2) * 256 + 1 * q.val = q.val; rw [e1]; omega
  rw [hemb]
  show k0_pay2 (iblk0 V c 0 t) (iblk0 V c 1 t) (iblk0 V c 2 t) (ix2 p q) = projAt _ _ _ _ q
  refine (kpay_apply (iblk0 V c 0 t) (iblk0 V c 1 t) (iblk0 V c 2 t) p q).trans ?_
  unfold projAt
  refine congrArg₂ (· + ·) (Finset.sum_congr rfl fun d _ => congrArg₂ (· * ·) (feat_apply V c t p d _ rfl) (wk_apply V c t d q)) (bk_apply V c t 0 q)

/-- The same for the value array. -/
theorem flushedV_eq (c : Dev nD) (t : Fin cfg0.N) :
    (dat0 V c).flushed 6 t = ((cfg0.win 6).blk t).view.read (Elt Ideal) (projArr (V c main_v8) (V c main_v2) (V c main_v6)) := by
  have hN : cfg0.N = 8 := N_0
  have ht := t.isLt
  obtain ⟨-, -, -, -, -, -, -, -, -, -, -, -, e0, e1⟩ := idx_facts t
  show (cfg0.win 6).cut (grid0.coords t) ((dat0 V c).after 6 t) = _
  rw [after0_6]
  unfold out0_6
  rw [View.canon_unit_zero hz2]
  simp only [View.ld_unit_zero (S := S2048x512) hz2, View.ld_unit_zero (S := S512x256) hz2, View.ld_unit_zero (S := S1x256) hz2]
  funext j
  obtain ⟨p, q, rfl⟩ : ∃ (p : Fin 2048) (q : Fin 256), j = ix2 p q := ⟨j 0, j 1, eq_ix2 j⟩
  rw [View.read_apply]
  have hemb : ((cfg0.win 6).blk t).view.emb (ix2 p q) = ix2 (⟨t.val * 2048 + p.val, by omega⟩ : Fin 16384) q := by
    funext a
    apply Fin.ext
    match a with
    | ⟨0, _⟩ => show win0_6.index t (0 : Fin 2) * 2048 + 1 * p.val = t.val * 2048 + p.val; rw [e0]; omega
    | ⟨1, _⟩ => show win0_6.index t (1 : Fin 2) * 256 + 1 * q.val = q.val; rw [e1]; omega
  rw [hemb]
  show k0_pay3 (iblk0 V c 0 t) (iblk0 V c 3 t) (iblk0 V c 4 t) (ix2 p q) = projAt _ _ _ _ q
  refine (vpay_apply (iblk0 V c 0 t) (iblk0 V c 3 t) (iblk0 V c 4 t) p q).trans ?_
  unfold projAt
  refine congrArg₂ (· + ·) (Finset.sum_congr rfl fun d _ => congrArg₂ (· * ·) (feat_apply V c t p d _ rfl) (wv_apply V c t d q)) (bv_apply V c t 0 q)

/-- An index of a result array is in point `t`'s block iff each coordinate is in the block's range on its axis. -/
theorem mem_blkK (t : Fin cfg0.N) (i : S16384x256.Idx) :
    i ∈ ((cfg0.win 5).blk t).view.set ↔ ∀ a : Fin 2, win0_5.index t a * S2048x256.size a ≤ (i a).val ∧ (i a).val < win0_5.index t a * S2048x256.size a + S2048x256.size a := by
  show i ∈ ((View.whole main_v9_0).slice (win0_5.rect t)).set ↔ _
  rw [View.set_slice_whole, Rect.mem_set_unit]
  exact Iff.rfl

theorem mem_blkV (t : Fin cfg0.N) (i : S16384x256.Idx) :
    i ∈ ((cfg0.win 6).blk t).view.set ↔ ∀ a : Fin 2, win0_6.index t a * S2048x256.size a ≤ (i a).val ∧ (i a).val < win0_6.index t a * S2048x256.size a + S2048x256.size a := by
  show i ∈ ((View.whole main_v9_1).slice (win0_6.rect t)).set ↔ _
  rw [View.set_slice_whole, Rect.mem_set_unit]
  exact Iff.rfl

/-- Row `r` of a result array is written by point `r / 2048`. -/
theorem coverK (i : S16384x256.Idx) : ∃ t : Fin cfg0.N, (cfg0.win 5).flush t = true ∧ i ∈ ((cfg0.win 5).blk t).view.set := by
  have hN : cfg0.N = 8 := N_0
  have hi0 : (i 0).val < 16384 := (i 0).isLt
  have hi1 : (i 1).val < 256 := (i 1).isLt
  let t : Fin cfg0.N := ⟨(i 0).val / 2048, by omega⟩
  obtain ⟨-, -, -, -, -, -, -, -, -, -, e0, e1, -⟩ := idx_facts t
  refine ⟨t, flush0_5 t, ?_⟩
  rw [mem_blkK]
  intro a
  match a with
  | ⟨0, _⟩ => show win0_5.index t (0 : Fin 2) * 2048 ≤ (i 0).val ∧ (i 0).val < win0_5.index t (0 : Fin 2) * 2048 + 2048; rw [e0]; show (i 0).val / 2048 * 2048 ≤ (i 0).val ∧ (i 0).val < (i 0).val / 2048 * 2048 + 2048; omega
  | ⟨1, _⟩ => show win0_5.index t (1 : Fin 2) * 256 ≤ (i 1).val ∧ (i 1).val < win0_5.index t (1 : Fin 2) * 256 + 256; rw [e1]; omega

theorem coverV (i : S16384x256.Idx) : ∃ t : Fin cfg0.N, (cfg0.win 6).flush t = true ∧ i ∈ ((cfg0.win 6).blk t).view.set := by
  have hN : cfg0.N = 8 := N_0
  have hi0 : (i 0).val < 16384 := (i 0).isLt
  have hi1 : (i 1).val < 256 := (i 1).isLt
  let t : Fin cfg0.N := ⟨(i 0).val / 2048, by omega⟩
  obtain ⟨-, -, -, -, -, -, -, -, -, -, -, -, e0, e1⟩ := idx_facts t
  refine ⟨t, flush0_6 t, ?_⟩
  rw [mem_blkV]
  intro a
  match a with
  | ⟨0, _⟩ => show win0_6.index t (0 : Fin 2) * 2048 ≤ (i 0).val ∧ (i 0).val < win0_6.index t (0 : Fin 2) * 2048 + 2048; rw [e0]; show (i 0).val / 2048 * 2048 ≤ (i 0).val ∧ (i 0).val < (i 0).val / 2048 * 2048 + 2048; omega
  | ⟨1, _⟩ => show win0_6.index t (1 : Fin 2) * 256 ≤ (i 1).val ∧ (i 1).val < win0_6.index t (1 : Fin 2) * 256 + 256; rw [e1]; omega

/-- THE KEY ARRAY after the region: the key projection of the arrays as the region finds them. -/
theorem finalK (c : Dev nD) : (dat0 V c).arrAt 5 cfg0.N = projArr (V c main_v8) (V c main_v1) (V c main_v5) :=
  (dat0 V c).arrAt_eq_of_cover 5 _ (fun t _ => flushedK_eq V c t) coverK

/-- THE VALUE ARRAY after the region. -/
theorem finalV (c : Dev nD) : (dat0 V c).arrAt 6 cfg0.N = projArr (V c main_v8) (V c main_v2) (V c main_v6) :=
  (dat0 V c).arrAt_eq_of_cover 6 _ (fun t _ => flushedV_eq V c t) coverV

end Cert.KernelIdeal.Kv

end
-- ==== Proof.AttnRegion.lean ====
/-
  The second kernel region, read as values: after its sixteen grid points the result array holds, at every batch
  entry `n`, query row `s` and output column `g`, the row-wise attention formula of the arrays as the region finds
  them: the row's projected query `x·W + b`, the batch entry's keys and values, column `g` of the output weights and
  entry `g` of the output bias.  Point `t` (batch entry `t / 2`, half `t % 2`) writes rows `1024·(t % 2) … + 1023` of batch
  entry `t / 2`; the sixteen tiles cover the array.  Stated at any contents `V` of the buffers at the region's entry, at
  the extended reals.
-/
import proofs.«113775_j66692252172948_2_alg».proof.Proof.Gen.KernelIdeal.Frame
import proofs.«113775_j66692252172948_2_alg».proof.Proof.KernelPay

set_option maxRecDepth 16384

noncomputable section

namespace Cert.KernelIdeal.AttnR

open Cert.KernelIdeal Cert.KernelIdeal.Gen Cert.KernelIdeal.Pay
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The attention formula at batch entry `n`, query row `s`, output column `g`, from the feature array, the query weights
    and bias, the key and value arrays, the output weights and bias. -/
def attnAt (a0 : FVec Ideal S8x2048x512 .f32) (a1 : FVec Ideal S512x256 .bf16) (a2 : FVec Ideal S1x256 .f32)
    (a3 a4 : FVec Ideal S8x2048x256 .bf16) (a5 : FVec Ideal S256x256 .bf16) (a6 : FVec Ideal S1x256 .f32)
    (n : Fin 8) (s : Fin 2048) (g : Fin 256) : EReal :=
  Cert.Attn.rowOut (fun f => (∑ d : Fin 512, a0 (ix3 n s d) * a1 (ix2 d f)) + a2 (ix2 (0 : Fin 1) f))
    (fun t f => a3 (ix3 n t f)) (fun t f => a4 (ix3 n t f)) (fun f => a5 (ix2 f g)) (a6 (ix2 (0 : Fin 1) g))

/-- The whole result array. -/
def attnArr (a0 : FVec Ideal S8x2048x512 .f32) (a1 : FVec Ideal S512x256 .bf16) (a2 : FVec Ideal S1x256 .f32)
    (a3 a4 : FVec Ideal S8x2048x256 .bf16) (a5 : FVec Ideal S256x256 .bf16) (a6 : FVec Ideal S1x256 .f32) :
    FVec Ideal S8x2048x256 .f32 := fun i => attnAt a0 a1 a2 a3 a4 a5 a6 (i 0) (i 1) (i 2)

/-- The row formula respects equality of each of its five arguments. -/
theorem rowOut_congr {q q' : Fin 256 → EReal} {k k' v v' : Fin 2048 → Fin 256 → EReal} {w w' : Fin 256 → EReal}
    {b b' : EReal} (hq : q = q') (hk : k = k') (hv : v = v') (hw : w = w') (hb : b = b') :
    Cert.Attn.rowOut q k v w b = Cert.Attn.rowOut q' k' v' w' b' := by
  subst hq hk hv hw hb; rfl

/-! ### The printed index maps over the grid

Point `t` of the [8, 2] grid is batch entry `t / 2`, half `t % 2`.  The feature window and the result window follow both
coordinates, the key and value windows the batch entry only, the weights and biases stay. -/

theorem idx0 : ∀ t : Fin cfg1.N,
    win1_0.index t (0 : Fin 3) = t.val / 2 ∧ win1_0.index t (1 : Fin 3) = t.val % 2 ∧ win1_0.index t (2 : Fin 3) = 0 :=
  (by decide +kernel : ∀ t : Fin grid1.N, _)
theorem idx1 : ∀ t : Fin cfg1.N, win1_1.index t (0 : Fin 2) = 0 ∧ win1_1.index t (1 : Fin 2) = 0 :=
  (by decide +kernel : ∀ t : Fin grid1.N, _)
theorem idx2 : ∀ t : Fin cfg1.N, win1_2.index t (0 : Fin 2) = 0 ∧ win1_2.index t (1 : Fin 2) = 0 :=
  (by decide +kernel : ∀ t : Fin grid1.N, _)
theorem idx3 : ∀ t : Fin cfg1.N,
    win1_3.index t (0 : Fin 3) = t.val / 2 ∧ win1_3.index t (1 : Fin 3) = 0 ∧ win1_3.index t (2 : Fin 3) = 0 :=
  (by decide +kernel : ∀ t : Fin grid1.N, _)
theorem idx4 : ∀ t : Fin cfg1.N,
    win1_4.index t (0 : Fin 3) = t.val / 2 ∧ win1_4.index t (1 : Fin 3) = 0 ∧ win1_4.index t (2 : Fin 3) = 0 :=
  (by decide +kernel : ∀ t : Fin grid1.N, _)
theorem idx5 : ∀ t : Fin cfg1.N, win1_5.index t (0 : Fin 2) = 0 ∧ win1_5.index t (1 : Fin 2) = 0 :=
  (by decide +kernel : ∀ t : Fin grid1.N, _)
theorem idx6 : ∀ t : Fin cfg1.N, win1_6.index t (0 : Fin 2) = 0 ∧ win1_6.index t (1 : Fin 2) = 0 :=
  (by decide +kernel : ∀ t : Fin grid1.N, _)
theorem idx7 : ∀ t : Fin cfg1.N,
    win1_7.index t (0 : Fin 3) = t.val / 2 ∧ win1_7.index t (1 : Fin 3) = t.val % 2 ∧ win1_7.index t (2 : Fin 3) = 0 :=
  (by decide +kernel : ∀ t : Fin grid1.N, _)

/-! ### The input windows' blocks, entry by entry -/

/-- The feature window's block at point `t` is rows `1024·(t % 2) + r` of batch entry `t / 2`. -/
theorem feat_apply (c : Dev nD) (t : Fin cfg1.N) (u : Fin 1) (r : Fin 1024) (d : Fin 512) (n : Fin 8) (s : Fin 2048)
    (hn : n.val = t.val / 2) (hs : s.val = t.val % 2 * 1024 + r.val) :
    (iblk1 V c 0 t : Vec Ideal S1x1024x512 .f32) (ix3 u r d) = (V c main_arg0 : FVec Ideal S8x2048x512 .f32) (ix3 n s d) := by
  obtain ⟨e0, e1, e2⟩ := idx0 t
  have hu := u.isLt
  unfold iblk1
  rw [View.read_apply]
  show V c main_arg0 _ = V c main_arg0 _
  congr 1
  funext a
  apply Fin.ext
  match a with
  | ⟨0, _⟩ => show win1_0.index t (0 : Fin 3) * 1 + 1 * u.val = n.val; rw [e0, hn]; omega
  | ⟨1, _⟩ => show win1_0.index t (1 : Fin 3) * 1024 + 1 * r.val = s.val; rw [e1, hs]; omega
  | ⟨2, _⟩ => show win1_0.index t (2 : Fin 3) * 512 + 1 * d.val = d.val; rw [e2]; omega

/-- The query weights' window is the whole array at every point. -/
theorem wq_apply (c : Dev nD) (t : Fin cfg1.N) (d : Fin 512) (f : Fin 256) :
    (iblk1 V c 1 t : Vec Ideal S512x256 .bf16) (ix2 d f) = (V c main_v0 : FVec Ideal S512x256 .bf16) (ix2 d f) := by
  obtain ⟨e0, e1⟩ := idx1 t
  unfold iblk1
  rw [View.read_apply]
  show V c main_v0 _ = V c main_v0 _
  congr 1
  funext a
  apply Fin.ext
  match a with
  | ⟨0, _⟩ => show win1_1.index t (0 : Fin 2) * 512 + 1 * d.val = d.val; rw [e0]; omega
  | ⟨1, _⟩ => show win1_1.index t (1 : Fin 2) * 256 + 1 * f.val = f.val; rw [e1]; omega

/-- The query bias' window is the whole array at every point. -/
theorem bq_apply (c : Dev nD) (t : Fin cfg1.N) (u : Fin 1) (f : Fin 256) :
    (iblk1 V c 2 t : Vec Ideal S1x256 .f32) (ix2 u f) = (V c main_v4 : FVec Ideal S1x256 .f32) (ix2 u f) := by
  obtain ⟨e0, e1⟩ := idx2 t
  unfold iblk1
  rw [View.read_apply]
  show V c main_v4 _ = V c main_v4 _
  congr 1
  funext a
  apply Fin.ext
  match a with
  | ⟨0, _⟩ => show win1_2.index t (0 : Fin 2) * 1 + 1 * u.val = u.val; rw [e0]; omega
  | ⟨1, _⟩ => show win1_2.index t (1 : Fin 2) * 256 + 1 * f.val = f.val; rw [e1]; omega

/-- The key window's block at point `t` is batch entry `t / 2` of the key array. -/
theorem key_apply (c : Dev nD) (t : Fin cfg1.N) (u : Fin 1) (p : Fin 2048) (f : Fin 256) (n : Fin 8)
    (hn : n.val = t.val / 2) :
    (iblk1 V c 3 t : Vec Ideal S1x2048x256 .bf16) (ix3 u p f) = (V c main_v10 : FVec Ideal S8x2048x256 .bf16) (ix3 n p f) := by
  obtain ⟨e0, e1, e2⟩ := idx3 t
  have hu := u.isLt
  unfold iblk1
  rw [View.read_apply]
  show V c main_v10 _ = V c main_v10 _
  congr 1
  funext a
  apply Fin.ext
  match a with
  | ⟨0, _⟩ => show win1_3.index t (0 : Fin 3) * 1 + 1 * u.val = n.val; rw [e0, hn]; omega
  | ⟨1, _⟩ => show win1_3.index t (1 : Fin 3) * 2048 + 1 * p.val = p.val; rw [e1]; omega
  | ⟨2, _⟩ => show win1_3.index t (2 : Fin 3) * 256 + 1 * f.val = f.val; rw [e2]; omega

/-- The value window's block at point `t` is batch entry `t / 2` of the value array. -/
theorem val_apply (c : Dev nD) (t : Fin cfg1.N) (u : Fin 1) (p : Fin 2048) (f : Fin 256) (n : Fin 8)
    (hn : n.val = t.val / 2) :
    (iblk1 V c 4 t : Vec Ideal S1x2048x256 .bf16) (ix3 u p f) = (V c main_v11 : FVec Ideal S8x2048x256 .bf16) (ix3 n p f) := by
  obtain ⟨e0, e1, e2⟩ := idx4 t
  have hu := u.isLt
  unfold iblk1
  rw [View.read_apply]
  show V c main_v11 _ = V c main_v11 _
  congr 1
  funext a
  apply Fin.ext
  match a with
  | ⟨0, _⟩ => show win1_4.index t (0 : Fin 3) * 1 + 1 * u.val = n.val; rw [e0, hn]; omega
  | ⟨1, _⟩ => show win1_4.index t (1 : Fin 3) * 2048 + 1 * p.val = p.val; rw [e1]; omega
  | ⟨2, _⟩ => show win1_4.index t (2 : Fin 3) * 256 + 1 * f.val = f.val; rw [e2]; omega

/-- The output weights' window is the whole array at every point. -/
theorem wo_apply (c : Dev nD) (t : Fin cfg1.N) (f : Fin 256) (g : Fin 256) :
    (iblk1 V c 5 t : Vec Ideal S256x256 .bf16) (ix2 f g) = (V c main_v3 : FVec Ideal S256x256 .bf16) (ix2 f g) := by
  obtain ⟨e0, e1⟩ := idx5 t
  unfold iblk1
  rw [View.read_apply]
  show V c main_v3 _ = V c main_v3 _
  congr 1
  funext a
  apply Fin.ext
  match a with
  | ⟨0, _⟩ => show win1_5.index t (0 : Fin 2) * 256 + 1 * f.val = f.val; rw [e0]; omega
  | ⟨1, _⟩ => show win1_5.index t (1 : Fin 2) * 256 + 1 * g.val = g.val; rw [e1]; omega

/-- The output bias' window is the whole array at every point. -/
theorem bo_apply (c : Dev nD) (t : Fin cfg1.N) (u : Fin 1) (g : Fin 256) :
    (iblk1 V c 6 t : Vec Ideal S1x256 .f32) (ix2 u g) = (V c main_v7 : FVec Ideal S1x256 .f32) (ix2 u g) := by
  obtain ⟨e0, e1⟩ := idx6 t
  unfold iblk1
  rw [View.read_apply]
  show V c main_v7 _ = V c main_v7 _
  congr 1
  funext a
  apply Fin.ext
  match a with
  | ⟨0, _⟩ => show win1_6.index t (0 : Fin 2) * 1 + 1 * u.val = u.val; rw [e0]; omega
  | ⟨1, _⟩ => show win1_6.index t (1 : Fin 2) * 256 + 1 * g.val = g.val; rw [e1]; omega

/-! ### What a point writes back -/

/-- WHAT POINT `t` WRITES BACK to the result array is block `t` of the attention formula of the arrays as the region
    finds them. -/
theorem flushedO_eq (c : Dev nD) (t : Fin cfg1.N) :
    (dat1 V c).flushed 7 t
      = ((cfg1.win 7).blk t).view.read (Elt Ideal)
          (attnArr (V c main_arg0) (V c main_v0) (V c main_v4) (V c main_v10) (V c main_v11) (V c main_v3) (V c main_v7)) := by
  have hN : cfg1.N = 16 := N_1
  have ht := t.isLt
  obtain ⟨e0, e1, e2⟩ := idx7 t
  show (cfg1.win 7).cut (grid1.coords t) ((dat1 V c).after 7 t) = _
  rw [after1_7]
  unfold out1_7
  rw [View.canon_unit_zero hz3]
  simp only [View.ld_unit_zero (S := S1x1024x512) hz3, View.ld_unit_zero (S := S512x256) hz2,
    View.ld_unit_zero (S := S1x256) hz2, View.ld_unit_zero (S := S1x2048x256) hz3, View.ld_unit_zero (S := S256x256) hz2]
  funext j
  obtain ⟨u, r, g, rfl⟩ : ∃ (u : Fin 1) (r : Fin 1024) (g : Fin 256), j = ix3 u r g := ⟨j 0, j 1, j 2, eq_ix3 j⟩
  have hu := u.isLt
  have hr := r.isLt
  rw [View.read_apply]
  have hemb : ((cfg1.win 7).blk t).view.emb (ix3 u r g)
      = ix3 (⟨t.val / 2, by omega⟩ : Fin 8) (⟨t.val % 2 * 1024 + r.val, by omega⟩ : Fin 2048) g := by
    funext a
    apply Fin.ext
    match a with
    | ⟨0, _⟩ => show win1_7.index t (0 : Fin 3) * 1 + 1 * u.val = t.val / 2; rw [e0]; omega
    | ⟨1, _⟩ => show win1_7.index t (1 : Fin 3) * 1024 + 1 * r.val = t.val % 2 * 1024 + r.val; rw [e1]; omega
    | ⟨2, _⟩ => show win1_7.index t (2 : Fin 3) * 256 + 1 * g.val = g.val; rw [e2]; omega
  rw [hemb]
  show k1_pay1 (k1_pay2 (iblk1 V c 0 t) (iblk1 V c 1 t) (iblk1 V c 2 t) (iblk1 V c 3 t) (iblk1 V c 4 t) (iblk1 V c 5 t))
      (iblk1 V c 6 t) (ix3 u r g) = attnAt _ _ _ _ _ _ _ _ _ g
  refine (attn_pay_apply (iblk1 V c 0 t) (iblk1 V c 1 t) (iblk1 V c 2 t) (iblk1 V c 3 t) (iblk1 V c 4 t) (iblk1 V c 5 t)
    (iblk1 V c 6 t) u r g).trans ?_
  unfold attnAt
  refine rowOut_congr (funext fun f => ?_) (funext fun p => funext fun f => ?_) (funext fun p => funext fun f => ?_)
    (funext fun f => ?_) ?_
  · unfold qrow
    exact congrArg₂ (· + ·)
      (Finset.sum_congr rfl fun d _ => congrArg₂ (· * ·) (feat_apply V c t 0 r d _ _ rfl rfl) (wq_apply V c t d f))
      (bq_apply V c t 0 f)
  · unfold krows
    exact key_apply V c t 0 p f _ rfl
  · unfold krows
    exact val_apply V c t 0 p f _ rfl
  · exact wo_apply V c t f g
  · exact bo_apply V c t 0 g

/-! ### The sixteen tiles cover the result array -/

/-- An index of the result array is in point `t`'s block iff each coordinate is in the block's range on its axis. -/
theorem mem_blkO (t : Fin cfg1.N) (i : S8x2048x256.Idx) :
    i ∈ ((cfg1.win 7).blk t).view.set ↔ ∀ a : Fin 3, win1_7.index t a * S1x1024x256.size a ≤ (i a).val
      ∧ (i a).val < win1_7.index t a * S1x1024x256.size a + S1x1024x256.size a := by
  show i ∈ ((View.whole main_v12).slice (win1_7.rect t)).set ↔ _
  rw [View.set_slice_whole, Rect.mem_set_unit]
  exact Iff.rfl

/-- Entry `(n, s, g)` of the result array is written by point `2·n + s / 1024`. -/
theorem coverO (i : S8x2048x256.Idx) : ∃ t : Fin cfg1.N, (cfg1.win 7).flush t = true ∧ i ∈ ((cfg1.win 7).blk t).view.set := by
  have hN : cfg1.N = 16 := N_1
  have hi0 : (i 0).val < 8 := (i 0).isLt
  have hi1 : (i 1).val < 2048 := (i 1).isLt
  have hi2 : (i 2).val < 256 := (i 2).isLt
  let t : Fin cfg1.N := ⟨2 * (i 0).val + (i 1).val / 1024, by omega⟩
  have htv : t.val = 2 * (i 0).val + (i 1).val / 1024 := rfl
  obtain ⟨e0, e1, e2⟩ := idx7 t
  refine ⟨t, flush1_7 t, ?_⟩
  rw [mem_blkO]
  intro a
  match a with
  | ⟨0, _⟩ =>
    show win1_7.index t (0 : Fin 3) * 1 ≤ (i 0).val ∧ (i 0).val < win1_7.index t (0 : Fin 3) * 1 + 1
    rw [e0, htv]; omega
  | ⟨1, _⟩ =>
    show win1_7.index t (1 : Fin 3) * 1024 ≤ (i 1).val ∧ (i 1).val < win1_7.index t (1 : Fin 3) * 1024 + 1024
    rw [e1, htv]; omega
  | ⟨2, _⟩ =>
    show win1_7.index t (2 : Fin 3) * 256 ≤ (i 2).val ∧ (i 2).val < win1_7.index t (2 : Fin 3) * 256 + 256
    rw [e2]; omega

/-- THE RESULT ARRAY after the region: the attention formula of the arrays as the region finds them. -/
theorem finalO (c : Dev nD) :
    (dat1 V c).arrAt 7 cfg1.N
      = attnArr (V c main_arg0) (V c main_v0) (V c main_v4) (V c main_v10) (V c main_v11) (V c main_v3) (V c main_v7) :=
  (dat1 V c).arrAt_eq_of_cover 7 _ (fun t _ => flushedO_eq V c t) coverO

end Cert.KernelIdeal.AttnR

end
-- ==== Proof.KernelGlue.lean ====
/-
  The host operations of the kernel program, read as values: what the buffers hold where each kernel region starts,
  and the program's result array assembled from the two regions' results.

  Before the first region the program changes the format of the four weight matrices (the identity on extended
  reals), views each bias vector as a one-row matrix, and flattens the second feature array [8, 2048, 512] to
  [16384, 512] (row n·2048 + s is row s of batch entry n).  Between the regions it views the first region's two
  [16384, 256] results as [8, 2048, 256] again.  No region and no later operation writes a buffer it only reads, so
  each of these buffers still holds that value where it is read.
-/
import proofs.«113775_j66692252172948_2_alg».proof.Proof.Gen.KernelIdeal.Frame
import proofs.«113775_j66692252172948_2_alg».proof.Proof.LibReadAt
import proofs.«113775_j66692252172948_2_alg».proof.Proof.AttnRow
import proofs.«113775_j66692252172948_2_alg».proof.Proof.KvRegion
import proofs.«113775_j66692252172948_2_alg».proof.Proof.AttnRegion
import Idealize.ShloMosaic.Lib.StableHlo.Run
import Idealize.ShloMosaic.Lib.ValueLayout

set_option maxRecDepth 16384

noncomputable section

namespace Cert.KernelIdeal.Glue

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-! ## Where the first region starts -/

/-- The flattened feature array is the reshape of the second feature array. -/
theorem v8_eq : (V1 m ρ c main_v8 : FVec Ideal S16384x512 .f32)
    = shapeCast S16384x512 (m ((c : Thread nD τ).loc main_arg1) : FVec Ideal S8x2048x512 .f32) Facts₀.shapeCasts_S8x2048x512_S16384x512 := by
  show StableHlo.after hostOps0 (W0 m ρ c) (Proc.devRef .tc main_v8) = _
  after_results
  rfl

/-- Row `n·2048 + s` of the flattened feature array is row `s` of batch entry `n`. -/
theorem v8_apply (n : Fin 8) (s : Fin 2048) (d : Fin 512) (k : Fin 16384) (hk : k.val = n.val * 2048 + s.val) :
    (V1 m ρ c main_v8 : FVec Ideal S16384x512 .f32) (ix2 k d)
      = (m ((c : Thread nD τ).loc main_arg1) : FVec Ideal S8x2048x512 .f32) (ix3 n s d) := by
  rw [v8_eq]
  exact Cert.ReadAt.shapeCast_gab_rb_apply _ _ n s d k hk

/-- The key weights in the kernel's format are the key weights (a format change is the identity on extended reals). -/
theorem v1_eq : (V1 m ρ c main_v1 : FVec Ideal S512x256 .bf16) = (m ((c : Thread nD τ).loc main_arg4) : FVec Ideal S512x256 .f32) := by
  show StableHlo.after hostOps0 (W0 m ρ c) (Proc.devRef .tc main_v1) = _
  after_results
  rfl

/-- … and the value weights likewise. -/
theorem v2_eq : (V1 m ρ c main_v2 : FVec Ideal S512x256 .bf16) = (m ((c : Thread nD τ).loc main_arg6) : FVec Ideal S512x256 .f32) := by
  show StableHlo.after hostOps0 (W0 m ρ c) (Proc.devRef .tc main_v2) = _
  after_results
  rfl

/-- The key bias as a one-row matrix. -/
theorem v5_eq : (V1 m ρ c main_v5 : FVec Ideal S1x256 .f32)
    = shapeCast S1x256 (m ((c : Thread nD τ).loc main_arg5) : FVec Ideal S256 .f32) Facts₀.shapeCasts_S256_S1x256 := by
  show StableHlo.after hostOps0 (W0 m ρ c) (Proc.devRef .tc main_v5) = _
  after_results
  rfl

theorem v5_apply (u : Fin 1) (q : Fin 256) :
    (V1 m ρ c main_v5 : FVec Ideal S1x256 .f32) (ix2 u q) = (m ((c : Thread nD τ).loc main_arg5) : FVec Ideal S256 .f32) (ix1 q) := by
  rw [v5_eq]
  exact shapeCast_a_1a_apply _ _ u q

/-- The value bias as a one-row matrix. -/
theorem v6_eq : (V1 m ρ c main_v6 : FVec Ideal S1x256 .f32)
    = shapeCast S1x256 (m ((c : Thread nD τ).loc main_arg7) : FVec Ideal S256 .f32) Facts₀.shapeCasts_S256_S1x256 := by
  show StableHlo.after hostOps0 (W0 m ρ c) (Proc.devRef .tc main_v6) = _
  after_results
  rfl

theorem v6_apply (u : Fin 1) (q : Fin 256) :
    (V1 m ρ c main_v6 : FVec Ideal S1x256 .f32) (ix2 u q) = (m ((c : Thread nD τ).loc main_arg7) : FVec Ideal S256 .f32) (ix1 q) := by
  rw [v6_eq]
  exact shapeCast_a_1a_apply _ _ u q

/-! ## Where the second region starts

These buffers are written by no operation between the regions and are no array of the first region, so they hold
what they held where the first region started. -/

/-- The first feature array is as launched. -/
theorem a0_eq : V3 m ρ c main_arg0 = m ((c : Thread nD τ).loc main_arg0) := by
  show StableHlo.after hostOps1 (W2 m ρ c) (Proc.devRef .tc main_arg0) = _
  after_results
  rw [W2_of_ne m ρ c main_arg0 (by decide)]
  show StableHlo.after hostOps0 (W0 m ρ c) (Proc.devRef .tc main_arg0) = _
  after_results

/-- The query weights in the kernel's format are the query weights. -/
theorem v0_eq : (V3 m ρ c main_v0 : FVec Ideal S512x256 .bf16) = (m ((c : Thread nD τ).loc main_arg2) : FVec Ideal S512x256 .f32) := by
  show StableHlo.after hostOps1 (W2 m ρ c) (Proc.devRef .tc main_v0) = _
  after_results
  rw [W2_of_ne m ρ c main_v0 (by decide)]
  show StableHlo.after hostOps0 (W0 m ρ c) (Proc.devRef .tc main_v0) = _
  after_results
  rfl

/-- The output-projection weights in the kernel's format are the output-projection weights. -/
theorem v3_eq : (V3 m ρ c main_v3 : FVec Ideal S256x256 .bf16) = (m ((c : Thread nD τ).loc main_arg8) : FVec Ideal S256x256 .f32) := by
  show StableHlo.after hostOps1 (W2 m ρ c) (Proc.devRef .tc main_v3) = _
  after_results
  rw [W2_of_ne m ρ c main_v3 (by decide)]
  show StableHlo.after hostOps0 (W0 m ρ c) (Proc.devRef .tc main_v3) = _
  after_results
  rfl

/-- The query bias as a one-row matrix. -/
theorem v4_eq : (V3 m ρ c main_v4 : FVec Ideal S1x256 .f32)
    = shapeCast S1x256 (m ((c : Thread nD τ).loc main_arg3) : FVec Ideal S256 .f32) Facts₀.shapeCasts_S256_S1x256 := by
  show StableHlo.after hostOps1 (W2 m ρ c) (Proc.devRef .tc main_v4) = _
  after_results
  rw [W2_of_ne m ρ c main_v4 (by decide)]
  show StableHlo.after hostOps0 (W0 m ρ c) (Proc.devRef .tc main_v4) = _
  after_results
  rfl

theorem v4_apply (u : Fin 1) (f : Fin 256) :
    (V3 m ρ c main_v4 : FVec Ideal S1x256 .f32) (ix2 u f) = (m ((c : Thread nD τ).loc main_arg3) : FVec Ideal S256 .f32) (ix1 f) := by
  rw [v4_eq]
  exact shapeCast_a_1a_apply _ _ u f

/-- The output bias as a one-row matrix. -/
theorem v7_eq : (V3 m ρ c main_v7 : FVec Ideal S1x256 .f32)
    = shapeCast S1x256 (m ((c : Thread nD τ).loc main_arg9) : FVec Ideal S256 .f32) Facts₀.shapeCasts_S256_S1x256 := by
  show StableHlo.after hostOps1 (W2 m ρ c) (Proc.devRef .tc main_v7) = _
  after_results
  rw [W2_of_ne m ρ c main_v7 (by decide)]
  show StableHlo.after hostOps0 (W0 m ρ c) (Proc.devRef .tc main_v7) = _
  after_results
  rfl

theorem v7_apply (u : Fin 1) (f : Fin 256) :
    (V3 m ρ c main_v7 : FVec Ideal S1x256 .f32) (ix2 u f) = (m ((c : Thread nD τ).loc main_arg9) : FVec Ideal S256 .f32) (ix1 f) := by
  rw [v7_eq]
  exact shapeCast_a_1a_apply _ _ u f

/-- The keys, as the second region reads them, are the first region's first result viewed as [8, 2048, 256]. -/
theorem v10_eq : (V3 m ρ c main_v10 : FVec Ideal S8x2048x256 .bf16)
    = shapeCast S8x2048x256 ((dat0 (V1 m ρ) c).arrAt 5 cfg0.N : FVec Ideal S16384x256 .bf16) Facts₀.shapeCasts_S16384x256_S8x2048x256 := by
  show StableHlo.after hostOps1 (W2 m ρ c) (Proc.devRef .tc main_v10) = _
  after_results
  exact congrArg (fun z : FVec Ideal S16384x256 .bf16 => shapeCast S8x2048x256 z Facts₀.shapeCasts_S16384x256_S8x2048x256) (W2_arr m ρ c 5)

theorem v10_apply (n : Fin 8) (t : Fin 2048) (f : Fin 256) (k : Fin 16384) (hk : k.val = n.val * 2048 + t.val) :
    (V3 m ρ c main_v10 : FVec Ideal S8x2048x256 .bf16) (ix3 n t f)
      = ((dat0 (V1 m ρ) c).arrAt 5 cfg0.N : FVec Ideal S16384x256 .bf16) (ix2 k f) := by
  rw [v10_eq]
  exact Cert.ReadAt.shapeCast_rb_gab_apply _ _ n t f k hk

/-- The values likewise, from the first region's second result. -/
theorem v11_eq : (V3 m ρ c main_v11 : FVec Ideal S8x2048x256 .bf16)
    = shapeCast S8x2048x256 ((dat0 (V1 m ρ) c).arrAt 6 cfg0.N : FVec Ideal S16384x256 .bf16) Facts₀.shapeCasts_S16384x256_S8x2048x256 := by
  show StableHlo.after hostOps1 (W2 m ρ c) (Proc.devRef .tc main_v11) = _
  after_results
  exact congrArg (fun z : FVec Ideal S16384x256 .bf16 => shapeCast S8x2048x256 z Facts₀.shapeCasts_S16384x256_S8x2048x256) (W2_arr m ρ c 6)

theorem v11_apply (n : Fin 8) (t : Fin 2048) (f : Fin 256) (k : Fin 16384) (hk : k.val = n.val * 2048 + t.val) :
    (V3 m ρ c main_v11 : FVec Ideal S8x2048x256 .bf16) (ix3 n t f)
      = ((dat0 (V1 m ρ) c).arrAt 6 cfg0.N : FVec Ideal S16384x256 .bf16) (ix2 k f) := by
  rw [v11_eq]
  exact Cert.ReadAt.shapeCast_rb_gab_apply _ _ n t f k hk

/-! ## The program's result array -/

/-- Row `n·2048 + t` of the first region's key result is the key projection at `(n, t)`. -/
theorem keys_apply (n : Fin 8) (t : Fin 2048) (f : Fin 256) :
    (V3 m ρ c main_v10 : FVec Ideal S8x2048x256 .bf16) (ix3 n t f)
      = Cert.Attn.proj (m ((c : Thread nD τ).loc main_arg1)) (m ((c : Thread nD τ).loc main_arg4)) (m ((c : Thread nD τ).loc main_arg5)) n t f := by
  have hk : (⟨n.val * 2048 + t.val, by omega⟩ : Fin 16384).val = n.val * 2048 + t.val := rfl
  rw [v10_apply m ρ c n t f _ hk, Kv.finalK]
  show Kv.projAt _ _ _ _ f = _
  unfold Kv.projAt Cert.Attn.proj
  rw [v1_eq, v5_apply]
  simp only [fun d => v8_apply m ρ c n t d _ hk]

/-- … and of its value result the value projection. -/
theorem values_apply (n : Fin 8) (t : Fin 2048) (f : Fin 256) :
    (V3 m ρ c main_v11 : FVec Ideal S8x2048x256 .bf16) (ix3 n t f)
      = Cert.Attn.proj (m ((c : Thread nD τ).loc main_arg1)) (m ((c : Thread nD τ).loc main_arg6)) (m ((c : Thread nD τ).loc main_arg7)) n t f := by
  have hk : (⟨n.val * 2048 + t.val, by omega⟩ : Fin 16384).val = n.val * 2048 + t.val := rfl
  rw [v11_apply m ρ c n t f _ hk, Kv.finalV]
  show Kv.projAt _ _ _ _ f = _
  unfold Kv.projAt Cert.Attn.proj
  rw [v2_eq, v6_apply]
  simp only [fun d => v8_apply m ρ c n t d _ hk]

/-- THE KERNEL PROGRAM'S RESULT is the attention function of the ten argument arrays as launched. -/
theorem kernel_value :
    W4 m ρ c (Proc.devRef .tc main_v12)
      = Cert.Attn.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine ((W4_arr m ρ c 7).trans (AttnR.finalO (V3 m ρ) c)).trans ?_
  funext i
  obtain ⟨n, s, g, rfl⟩ : ∃ (n : Fin 8) (s : Fin 2048) (g : Fin 256), i = ix3 n s g := ⟨i 0, i 1, i 2, eq_ix3 i⟩
  rw [Cert.Attn.out_ix3, Cert.Attn.outAt_eq_rowOut]
  show AttnR.attnAt _ _ _ _ _ _ _ n s g = _
  unfold AttnR.attnAt
  refine AttnR.rowOut_congr ?_ ?_ ?_ ?_ ?_
  · funext f
    unfold Cert.Attn.proj
    rw [a0_eq, v0_eq, v4_apply]
  · funext t f
    exact keys_apply m ρ c n t f
  · funext t f
    exact values_apply m ρ c n t f
  · rw [v3_eq]
  · exact v7_apply m ρ c 0 g

end Cert.KernelIdeal.Glue

end
-- ==== Proof.RefRead.lean ====
/-
  The reference program read index by index, in the specification's vocabulary.

  Each stage of the reference (the three projections, the scaled scores, the row maximum, the exponentials, their row
  sum, the normalised weights, the attended features, the output projection) is read at a coordinate triple and
  identified with a plain function over literal index types. The result, `refOutAt`, is the reference's own
  arrangement of single-head attention: every weight is divided by the row's total BEFORE the weighted sum of the
  values is taken. It holds for all extended-real inputs.
-/
import proofs.«113775_j66692252172948_2_alg».proof.Proof.Gen.ReferenceIdeal.Read
import proofs.«113775_j66692252172948_2_alg».proof.Proof.AttnSpec

noncomputable section

namespace Cert.Attn

open Idealize.ShloMosaic Idealize.ShloMosaic.ValueIdx Cert.ReferenceIdeal Cert.ReferenceIdeal.Gen

/-- The scaled score as the reference writes it: the inner product divided by `sqrt 256`. -/
def refScore (q k : Fin 8 → Fin 2048 → Fin 256 → EReal) (n : Fin 8) (s t : Fin 2048) : EReal :=
  Ideal.div (∑ f : Fin 256, q n s f * k n t f) (Ideal.sqrt (Ideal.ofBits .f32 0x43800000#32))

/-- A projection stage of the reference at `(n, s, f)` is `x·W + b` there. -/
theorem proj_read (x : (⟨S8x2048x512, .f32⟩ : BufTy).Contents (Elt Ideal)) (w : (⟨S512x256, .f32⟩ : BufTy).Contents (Elt Ideal))
    (b : (⟨S256, .f32⟩ : BufTy).Contents (Elt Ideal)) (n : Fin 8) (s : Fin 2048) (f : Fin 256) :
    Read.val_main_v3 (F := Ideal) x w b (ix3 n s f) = proj x w b n s f := by
  have el : ∀ k : Fin 512, Read.lidx_main_v0 (ix3 n s f) k = ix3 n s k := fun k => funext fun a => Fin.ext (by
    match a with | ⟨0, _⟩ => rfl | ⟨1, _⟩ => rfl | ⟨2, _⟩ => rfl)
  have er : ∀ k : Fin 512, Read.ridx_main_v0 (ix3 n s f) k = ix2 k f := fun k => funext fun a => Fin.ext (by
    match a with | ⟨0, _⟩ => rfl | ⟨1, _⟩ => rfl)
  have eb : Read.idx_main_v1 (Read.idx_main_v2 (ix3 n s f)) = ix1 f := funext fun a => Fin.ext (by
    match a with | ⟨0, _⟩ => rfl)
  rw [Read.val_main_v3_apply, Ideal.addf_def, Read.val_main_v0_apply, Read.val_main_v2_apply, Read.val_main_v1_apply, eb]
  simp only [el, er]
  rfl

/-- The key projection is the same program text as the query projection, over the other arrays. -/
theorem projK_read (x : (⟨S8x2048x512, .f32⟩ : BufTy).Contents (Elt Ideal)) (w : (⟨S512x256, .f32⟩ : BufTy).Contents (Elt Ideal))
    (b : (⟨S256, .f32⟩ : BufTy).Contents (Elt Ideal)) (n : Fin 8) (s : Fin 2048) (f : Fin 256) :
    Read.val_main_v7 (F := Ideal) x w b (ix3 n s f) = proj x w b n s f := proj_read x w b n s f

/-- … and so is the value projection. -/
theorem projV_read (x : (⟨S8x2048x512, .f32⟩ : BufTy).Contents (Elt Ideal)) (w : (⟨S512x256, .f32⟩ : BufTy).Contents (Elt Ideal))
    (b : (⟨S256, .f32⟩ : BufTy).Contents (Elt Ideal)) (n : Fin 8) (s : Fin 2048) (f : Fin 256) :
    Read.val_main_v11 (F := Ideal) x w b (ix3 n s f) = proj x w b n s f := proj_read x w b n s f

/-- The scaled-score stage at `(n, s, t)`. -/
theorem score_read (x0 x1 : (⟨S8x2048x512, .f32⟩ : BufTy).Contents (Elt Ideal)) (x2 : (⟨S512x256, .f32⟩ : BufTy).Contents (Elt Ideal))
    (x3 : (⟨S256, .f32⟩ : BufTy).Contents (Elt Ideal)) (x4 : (⟨S512x256, .f32⟩ : BufTy).Contents (Elt Ideal))
    (x5 : (⟨S256, .f32⟩ : BufTy).Contents (Elt Ideal)) (n : Fin 8) (s t : Fin 2048) :
    Read.val_main_v15 (F := Ideal) x0 x1 x2 x3 x4 x5 (ix3 n s t) = refScore (proj x0 x2 x3) (proj x1 x4 x5) n s t := by
  have el : ∀ k : Fin 256, Read.lidx_main_v12 (ix3 n s t) k = ix3 n s k := fun k => funext fun a => Fin.ext (by
    match a with | ⟨0, _⟩ => rfl | ⟨1, _⟩ => rfl | ⟨2, _⟩ => rfl)
  have er : ∀ k : Fin 256, Read.ridx_main_v12 (ix3 n s t) k = ix3 n t k := fun k => funext fun a => Fin.ext (by
    match a with | ⟨0, _⟩ => rfl | ⟨1, _⟩ => rfl | ⟨2, _⟩ => rfl)
  rw [Read.val_main_v15_apply, Ideal.hostDivf_def, Read.val_main_v12_apply, Read.val_main_v14_apply, Read.val_main_v13_apply,
    Ideal.hostUnary_sqrt_def, Read.val_main_cst_apply, Ideal.ofBits_def]
  simp only [el, er, proj_read, projK_read]
  rfl

/-- The reference's row maximum: the fold of `max` from -∞ over the 2048 keys, then one more `max` with -∞. -/
def refMax (sc : Fin 2048 → EReal) : EReal :=
  max (Ideal.ofBits .f32 0xFF800000#32) ((Finset.univ : Finset (Fin 2048)).fold max (Ideal.ofBits .f32 0xFF800000#32) sc)

/-- The index over row `(n, s)` with key coordinate `t` inserted on the reduced axis is `(n, s, t)`. -/
theorem lift_row (h : S8x2048x2048.Reduces [2] S8x2048) (n : Fin 8) (s t : Fin 2048) :
    h.lift (ix2 n s) t = ix3 n s t := funext fun a => Fin.ext (by
  match a with | ⟨0, _⟩ => rfl | ⟨1, _⟩ => rfl | ⟨2, _⟩ => rfl)

/-- The row-maximum stage at `(n, s)`. -/
theorem max_read (x0 x1 : (⟨S8x2048x512, .f32⟩ : BufTy).Contents (Elt Ideal)) (x2 : (⟨S512x256, .f32⟩ : BufTy).Contents (Elt Ideal))
    (x3 : (⟨S256, .f32⟩ : BufTy).Contents (Elt Ideal)) (x4 : (⟨S512x256, .f32⟩ : BufTy).Contents (Elt Ideal))
    (x5 : (⟨S256, .f32⟩ : BufTy).Contents (Elt Ideal)) (n : Fin 8) (s : Fin 2048) :
    Read.val_main_v18 (F := Ideal) x0 x1 x2 x3 x4 x5 (ix2 n s) = refMax (refScore (proj x0 x2 x3) (proj x1 x4 x5) n s) := by
  have h : S8x2048x2048.Reduces [2] S8x2048 := by decide
  have hf : (Read.val_main_v15 (F := Ideal) x0 x1 x2 x3 x4 x5 ∘ h.lift (ix2 n s)) = refScore (proj x0 x2 x3) (proj x1 x4 x5) n s :=
    funext fun (t : Fin 2048) => (congrArg (Read.val_main_v15 (F := Ideal) x0 x1 x2 x3 x4 x5) (lift_row h n s t)).trans
      (score_read x0 x1 x2 x3 x4 x5 n s t)
  rw [Read.val_main_v18_apply, Ideal.maximumf_def, Read.val_main_v17_apply, Read.val_main_cst_1_apply, Ideal.ofBits_def]
  unfold Read.val_main_v16
  rw [Host.reduce_eq_fold_single (FloatOps.maximumf (F := Ideal) (φ := .f32)) _ _ _ h, hf]
  rfl

/-- The exponential stage at `(n, s, t)`: `exp (score − row maximum)`. -/
theorem exp_read (x0 x1 : (⟨S8x2048x512, .f32⟩ : BufTy).Contents (Elt Ideal)) (x2 : (⟨S512x256, .f32⟩ : BufTy).Contents (Elt Ideal))
    (x3 : (⟨S256, .f32⟩ : BufTy).Contents (Elt Ideal)) (x4 : (⟨S512x256, .f32⟩ : BufTy).Contents (Elt Ideal))
    (x5 : (⟨S256, .f32⟩ : BufTy).Contents (Elt Ideal)) (n : Fin 8) (s t : Fin 2048) :
    Read.val_main_v22 (F := Ideal) x0 x1 x2 x3 x4 x5 (ix3 n s t) = Ideal.exp (refScore (proj x0 x2 x3) (proj x1 x4 x5) n s t - refMax (refScore (proj x0 x2 x3) (proj x1 x4 x5) n s)) := by
  have em : Read.idx_main_v19 (Read.idx_main_v20 (ix3 n s t)) = ix2 n s := funext fun a => Fin.ext (by
    match a with | ⟨0, _⟩ => rfl | ⟨1, _⟩ => rfl)
  rw [Read.val_main_v22_apply, Ideal.hostUnary_exp_def, Read.val_main_v21_apply, Ideal.subf_def, score_read,
    Read.val_main_v20_apply, Read.val_main_v19_apply, em, max_read]

/-- The row-total stage at `(n, s)`: the zero word plus the sum of the row's exponentials. -/
theorem den_read (x0 x1 : (⟨S8x2048x512, .f32⟩ : BufTy).Contents (Elt Ideal)) (x2 : (⟨S512x256, .f32⟩ : BufTy).Contents (Elt Ideal))
    (x3 : (⟨S256, .f32⟩ : BufTy).Contents (Elt Ideal)) (x4 : (⟨S512x256, .f32⟩ : BufTy).Contents (Elt Ideal))
    (x5 : (⟨S256, .f32⟩ : BufTy).Contents (Elt Ideal)) (n : Fin 8) (s : Fin 2048) :
    Read.val_main_v23 (F := Ideal) x0 x1 x2 x3 x4 x5 (ix2 n s)
      = Ideal.ofBits .f32 0x00000000#32 + ∑ u : Fin 2048, Ideal.exp (refScore (proj x0 x2 x3) (proj x1 x4 x5) n s u - refMax (refScore (proj x0 x2 x3) (proj x1 x4 x5) n s)) := by
  have ei : ∀ k : Fin 2048, Read.idx_main_v23 (ix2 n s) k = ix3 n s k := fun k => funext fun a => Fin.ext (by
    match a with | ⟨0, _⟩ => rfl | ⟨1, _⟩ => rfl | ⟨2, _⟩ => rfl)
  rw [Read.val_main_v23_apply, Read.val_main_cst_2_apply, Ideal.ofBits_def]
  simp only [ei, exp_read]

/-- The normalised-weight stage at `(n, s, t)`: the exponential divided by the row total. -/
theorem weight_read (x0 x1 : (⟨S8x2048x512, .f32⟩ : BufTy).Contents (Elt Ideal)) (x2 : (⟨S512x256, .f32⟩ : BufTy).Contents (Elt Ideal))
    (x3 : (⟨S256, .f32⟩ : BufTy).Contents (Elt Ideal)) (x4 : (⟨S512x256, .f32⟩ : BufTy).Contents (Elt Ideal))
    (x5 : (⟨S256, .f32⟩ : BufTy).Contents (Elt Ideal)) (n : Fin 8) (s t : Fin 2048) :
    Read.val_main_v26 (F := Ideal) x0 x1 x2 x3 x4 x5 (ix3 n s t)
      = Ideal.div (Ideal.exp (refScore (proj x0 x2 x3) (proj x1 x4 x5) n s t - refMax (refScore (proj x0 x2 x3) (proj x1 x4 x5) n s)))
          (Ideal.ofBits .f32 0x00000000#32 + ∑ u : Fin 2048, Ideal.exp (refScore (proj x0 x2 x3) (proj x1 x4 x5) n s u - refMax (refScore (proj x0 x2 x3) (proj x1 x4 x5) n s))) := by
  have ed : Read.idx_main_v24 (Read.idx_main_v25 (ix3 n s t)) = ix2 n s := funext fun a => Fin.ext (by
    match a with | ⟨0, _⟩ => rfl | ⟨1, _⟩ => rfl)
  rw [Read.val_main_v26_apply, Ideal.hostDivf_def, exp_read, Read.val_main_v25_apply, Read.val_main_v24_apply, ed, den_read]

/-- The reference's attended feature: every weight is divided by the row total (a sum started from the zero word),
    and the normalised weights then weigh the value column. -/
def refCtx (q k v : Fin 8 → Fin 2048 → Fin 256 → EReal) (n : Fin 8) (s : Fin 2048) (f : Fin 256) : EReal :=
  ∑ t : Fin 2048, Ideal.div (Ideal.exp (refScore q k n s t - refMax (refScore q k n s)))
    (Ideal.ofBits .f32 0x00000000#32 + ∑ u : Fin 2048, Ideal.exp (refScore q k n s u - refMax (refScore q k n s))) * v n t f

/-- The attended-feature stage at `(n, s, f)`. -/
theorem ctx_read (x0 x1 : (⟨S8x2048x512, .f32⟩ : BufTy).Contents (Elt Ideal)) (x2 : (⟨S512x256, .f32⟩ : BufTy).Contents (Elt Ideal))
    (x3 : (⟨S256, .f32⟩ : BufTy).Contents (Elt Ideal)) (x4 : (⟨S512x256, .f32⟩ : BufTy).Contents (Elt Ideal))
    (x5 : (⟨S256, .f32⟩ : BufTy).Contents (Elt Ideal)) (x6 : (⟨S512x256, .f32⟩ : BufTy).Contents (Elt Ideal))
    (x7 : (⟨S256, .f32⟩ : BufTy).Contents (Elt Ideal)) (n : Fin 8) (s : Fin 2048) (f : Fin 256) :
    Read.val_main_v27 (F := Ideal) x0 x1 x2 x3 x4 x5 x6 x7 (ix3 n s f)
      = refCtx (proj x0 x2 x3) (proj x1 x4 x5) (proj x1 x6 x7) n s f := by
  have el : ∀ k : Fin 2048, Read.lidx_main_v27 (ix3 n s f) k = ix3 n s k := fun k => funext fun a => Fin.ext (by
    match a with | ⟨0, _⟩ => rfl | ⟨1, _⟩ => rfl | ⟨2, _⟩ => rfl)
  have er : ∀ k : Fin 2048, Read.ridx_main_v27 (ix3 n s f) k = ix3 n k f := fun k => funext fun a => Fin.ext (by
    match a with | ⟨0, _⟩ => rfl | ⟨1, _⟩ => rfl | ⟨2, _⟩ => rfl)
  rw [Read.val_main_v27_apply]
  simp only [el, er, weight_read, projV_read]
  rfl

/-- The reference's output at `(n, s, g)`: the output projection of the attended features, plus its bias. -/
def refOutAt (x0 x1 : (⟨S8x2048x512, .f32⟩ : BufTy).Contents (Elt Ideal)) (x2 : (⟨S512x256, .f32⟩ : BufTy).Contents (Elt Ideal))
    (x3 : (⟨S256, .f32⟩ : BufTy).Contents (Elt Ideal)) (x4 : (⟨S512x256, .f32⟩ : BufTy).Contents (Elt Ideal))
    (x5 : (⟨S256, .f32⟩ : BufTy).Contents (Elt Ideal)) (x6 : (⟨S512x256, .f32⟩ : BufTy).Contents (Elt Ideal))
    (x7 : (⟨S256, .f32⟩ : BufTy).Contents (Elt Ideal)) (x8 : (⟨S256x256, .f32⟩ : BufTy).Contents (Elt Ideal))
    (x9 : (⟨S256, .f32⟩ : BufTy).Contents (Elt Ideal))
    (n : Fin 8) (s : Fin 2048) (g : Fin 256) : EReal :=
  (∑ f : Fin 256, refCtx (proj x0 x2 x3) (proj x1 x4 x5) (proj x1 x6 x7) n s f * x8 (ix2 f g)) + x9 (ix1 g)

/-- THE REFERENCE READ AT `(n, s, g)`, for all extended-real inputs. -/
theorem ref_read (x0 x1 : (⟨S8x2048x512, .f32⟩ : BufTy).Contents (Elt Ideal)) (x2 : (⟨S512x256, .f32⟩ : BufTy).Contents (Elt Ideal))
    (x3 : (⟨S256, .f32⟩ : BufTy).Contents (Elt Ideal)) (x4 : (⟨S512x256, .f32⟩ : BufTy).Contents (Elt Ideal))
    (x5 : (⟨S256, .f32⟩ : BufTy).Contents (Elt Ideal)) (x6 : (⟨S512x256, .f32⟩ : BufTy).Contents (Elt Ideal))
    (x7 : (⟨S256, .f32⟩ : BufTy).Contents (Elt Ideal)) (x8 : (⟨S256x256, .f32⟩ : BufTy).Contents (Elt Ideal))
    (x9 : (⟨S256, .f32⟩ : BufTy).Contents (Elt Ideal))
    (n : Fin 8) (s : Fin 2048) (g : Fin 256) :
    Read.val_main_v31 (F := Ideal) x0 x1 x2 x3 x4 x5 x6 x7 x8 x9 (ix3 n s g) = refOutAt x0 x1 x2 x3 x4 x5 x6 x7 x8 x9 n s g := by
  have el : ∀ k : Fin 256, Read.lidx_main_v28 (ix3 n s g) k = ix3 n s k := fun k => funext fun a => Fin.ext (by
    match a with | ⟨0, _⟩ => rfl | ⟨1, _⟩ => rfl | ⟨2, _⟩ => rfl)
  have er : ∀ k : Fin 256, Read.ridx_main_v28 (ix3 n s g) k = ix2 k g := fun k => funext fun a => Fin.ext (by
    match a with | ⟨0, _⟩ => rfl | ⟨1, _⟩ => rfl)
  have eb : Read.idx_main_v29 (Read.idx_main_v30 (ix3 n s g)) = ix1 g := funext fun a => Fin.ext (by
    match a with | ⟨0, _⟩ => rfl)
  rw [Read.val_main_v31_apply, Ideal.addf_def, Read.val_main_v28_apply, Read.val_main_v30_apply, Read.val_main_v29_apply, eb]
  simp only [el, er, ctx_read]
  rfl

end Cert.Attn

end
-- ==== Proof.LibSoftmaxLaw.lean ====
/-
  Laws of the extended reals behind a softmax-weighted average.

  * `IsReal x` says that the extended real `x` is an ordinary real number; sums, differences, products,
    finite sums and the largest of finitely many (at least one) real numbers are again real.
  * Three binary words of the 32-bit float format and the extended reals they denote: -∞, 1/16 and 256.
  * Dividing by √256 = 16 is multiplying by 1/16, at every extended real (the infinities included).
  * `exp (x − m)` of two reals is a positive real.
  * The softmax law: when every score and the shift `m` are real, the total weight
    `L = Σ_u exp (score u − m)` is a positive real, so dividing by it is multiplying by the nonnegative finite
    constant `1/L`, and such a multiplication distributes over a finite sum of ARBITRARY extended reals:
      Σ_t (exp (score t − m) / L) · v t  =  (Σ_t exp (score t − m) · v t) / L.
-/
import Idealize.ShloMosaic.PureOps.Ideal

noncomputable section

namespace Cert.AttnLaw

open Idealize.ShloMosaic
open scoped BigOperators

/-! ### Being a real number -/

/-- The extended real `x` is (the image of) a real number: neither `⊤` nor `⊥`. -/
def IsReal (x : EReal) : Prop := ∃ r : ℝ, x = (r : EReal)

theorem isReal_coe (r : ℝ) : IsReal (r : EReal) := ⟨r, rfl⟩

theorem isReal_zero : IsReal (0 : EReal) := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is a real number. -/
theorem isReal_sum {ι : Type*} (s : Finset ι) (f : ι → EReal) (h : ∀ i ∈ s, IsReal (f i)) :
    IsReal (∑ i ∈ s, f i) := by
  classical
  revert h
  refine Finset.induction_on s ?_ ?_
  · intro _
    rw [Finset.sum_empty]
    exact isReal_zero
  · intro a s ha ih h
    rw [Finset.sum_insert ha]
    exact (h a (Finset.mem_insert_self a s)).add (ih fun i hi => h i (Finset.mem_insert_of_mem hi))

/-- The fold of `max` from `⊥` over a nonempty finite family is one of the family's members. -/
theorem fold_max_mem {ι : Type*} (s : Finset ι) (hs : s.Nonempty) (f : ι → EReal) :
    ∃ i ∈ s, s.fold max ⊥ f = f i := by
  classical
  revert hs
  refine Finset.induction_on s ?_ ?_
  · intro hs
    exact absurd hs Finset.not_nonempty_empty
  · intro a s ha ih _
    rw [Finset.fold_insert ha]
    rcases s.eq_empty_or_nonempty with rfl | hne
    · refine ⟨a, Finset.mem_insert_self _ _, ?_⟩
      rw [Finset.fold_empty]
      exact max_eq_left bot_le
    · obtain ⟨i, hi, e⟩ := ih hne
      rw [e]
      rcases max_choice (f a) (f i) with h | h
      · exact ⟨a, Finset.mem_insert_self _ _, h⟩
      · exact ⟨i, Finset.mem_insert_of_mem hi, h⟩

/-- The largest of finitely many (at least one) real numbers, folded from `⊥`, is a real number. -/
theorem isReal_fold_max {ι : Type*} (s : Finset ι) (hs : s.Nonempty) (f : ι → EReal) (h : ∀ i ∈ s, IsReal (f i)) :
    IsReal (s.fold max ⊥ f) := by
  obtain ⟨i, hi, e⟩ := fold_max_mem s hs f
  rw [e]
  exact h i hi

/-! ### Three binary words -/

/-- The word `0xFF800000` (sign 1, exponent all ones, fraction 0) is -∞. -/
theorem ofBits_neg_inf : Ideal.ofBits .f32 0xFF800000#32 = (⊥ : EReal) := by
  simp [Ideal.ofBits, Ideal.ieee]

/-- The word `0x3D800000` (exponent 123 = 127 − 4, fraction 0) is 2⁻⁴ = 1/16. -/
theorem ofBits_sixteenth : Ideal.ofBits .f32 0x3D800000#32 = ((1 / 16 : ℝ) : EReal) := by
  simp [Ideal.ofBits, Ideal.ieee, -EReal.coe_mul]; norm_num

/-- The word `0x43800000` (exponent 135 = 127 + 8, fraction 0) is 2⁸ = 256. -/
theorem ofBits_256 : Ideal.ofBits .f32 0x43800000#32 = ((256 : ℝ) : EReal) := by
  simp [Ideal.ofBits, Ideal.ieee, -EReal.coe_mul]; norm_num

theorem sqrt_256 : Real.sqrt 256 = 16 := by
  rw [show (256 : ℝ) = 16 ^ 2 by norm_num]
  exact Real.sqrt_sq (by norm_num)

/-- Dividing by √256 = 16 is multiplying by 1/16, on every extended real. -/
theorem div_sqrt_256 (x : EReal) :
    Ideal.div x (Ideal.sqrt (Ideal.ofBits .f32 0x43800000#32)) = x * Ideal.ofBits .f32 0x3D800000#32 := by
  rw [ofBits_256, ofBits_sixteenth, Ideal.sqrt_coe, if_neg (by norm_num), sqrt_256,
    Ideal.div_coe (by norm_num) x]

/-! ### The exponential of a difference of reals -/

theorem exp_sub_pos {x m : EReal} (hx : IsReal x) (hm : IsReal m) :
    ∃ r : ℝ, 0 < r ∧ Ideal.exp (x - m) = (r : EReal) := by
  obtain ⟨a, rfl⟩ := hx
  obtain ⟨b, rfl⟩ := hm
  exact ⟨Real.exp (a - b), Real.exp_pos _, by rw [← EReal.coe_sub, Ideal.exp_coe]⟩

/-! ### Sums -/

/-- The inclusion of the reals commutes with finite sums. -/
theorem coe_finset_sum {ι : Type*} (s : Finset ι) (g : ι → ℝ) :
    ((∑ i ∈ s, g i : ℝ) : EReal) = ∑ i ∈ s, (g i : EReal) := by
  classical
  refine Finset.induction_on s ?_ ?_
  · rw [Finset.sum_empty, Finset.sum_empty, EReal.coe_zero]
  · intro a s ha ih
    rw [Finset.sum_insert ha, Finset.sum_insert ha, EReal.coe_add, ih]

/-- Multiplication by a nonnegative constant other than `⊤` distributes over a finite sum of arbitrary
    extended reals. -/
theorem sum_mul_of_nonneg_of_ne_top {ι : Type*} (s : Finset ι) (f : ι → EReal) {c : EReal} (hc : 0 ≤ c)
    (hc' : c ≠ ⊤) : (∑ i ∈ s, f i) * c = ∑ i ∈ s, f i * c := by
  classical
  refine Finset.induction_on s ?_ ?_
  · rw [Finset.sum_empty, Finset.sum_empty, zero_mul]
  · intro a s ha ih
    rw [Finset.sum_insert ha, Finset.sum_insert ha, EReal.right_distrib_of_nonneg_of_ne_top hc hc', ih]

/-! ### The softmax law -/

/-- Normalising each weight before the weighted sum is the same as dividing the weighted sum once by the total
    weight: the total weight of real scores is a positive real `L`, and `· / L = · * (1/L)` with `0 ≤ 1/L < ⊤`
    distributes over the sum, whatever extended reals the values `v t` are. -/
theorem softmax_law {ι : Type*} [Fintype ι] [Nonempty ι] (sc : ι → EReal) (m : EReal) (hsc : ∀ t, IsReal (sc t))
    (hm : IsReal m) (v : ι → EReal) :
    ∑ t, Ideal.div (Ideal.exp (sc t - m)) (∑ u, Ideal.exp (sc u - m)) * v t
      = Ideal.div (∑ t, Ideal.exp (sc t - m) * v t) (∑ u, Ideal.exp (sc u - m)) := by
  choose a ha using hsc
  obtain ⟨b, rfl⟩ := hm
  -- every weight is the positive real exp (a t − b)
  have e : ∀ t, Ideal.exp (sc t - (b : EReal)) = ((Real.exp (a t - b) : ℝ) : EReal) := fun t => by
    rw [ha t, ← EReal.coe_sub, Ideal.exp_coe]
  -- the total weight is a positive real
  have hl : (0 : ℝ) < ∑ u, Real.exp (a u - b) :=
    Finset.sum_pos (fun u _ => Real.exp_pos _) Finset.univ_nonempty
  have hL : (∑ u, Ideal.exp (sc u - (b : EReal))) = ((∑ u, Real.exp (a u - b) : ℝ) : EReal) := by
    rw [coe_finset_sum]
    exact Finset.sum_congr rfl fun u _ => e u
  rw [hL]
  have hc : (0 : EReal) ≤ ((1 / ∑ u, Real.exp (a u - b) : ℝ) : EReal) :=
    EReal.coe_nonneg.mpr (one_div_pos.mpr hl).le
  rw [Ideal.div_coe hl.ne', sum_mul_of_nonneg_of_ne_top _ _ hc (EReal.coe_ne_top _)]
  refine Finset.sum_congr rfl fun t _ => ?_
  rw [Ideal.div_coe hl.ne', mul_right_comm]

end Cert.AttnLaw

end
-- ==== Proof.AttnReal.lean ====
/-
  The attention function's intermediate quantities are real numbers when the argument arrays are, and its
  normalisation can be read either way round.

  * A projection `x·W + b` of real arrays is real (a finite sum of products of reals plus a real).
  * A scaled score of real queries and keys is real (a finite sum of products times 1/16).
  * The row maximum of 2048 real scores, folded from -∞, is real (it is one of the scores).
  * For real scores, dividing the weighted sum of a value column ONCE by the total weight equals the sum of the
    column weighted by the already normalised weights `w t / Σ_u w u` — for an arbitrary value column.
-/
import proofs.«113775_j66692252172948_2_alg».proof.Proof.AttnSpec
import proofs.«113775_j66692252172948_2_alg».proof.Proof.LibSoftmaxLaw

noncomputable section

namespace Cert.Attn

open Idealize.ShloMosaic Idealize.ShloMosaic.ValueIdx
open Cert.AttnLaw
open scoped BigOperators

/-- A projection of real arrays is real. -/
theorem proj_isReal (x : FVec Ideal ⟨3, ![8, 2048, 512]⟩ .f32) (w : FVec Ideal ⟨2, ![512, 256]⟩ .f32)
    (b : FVec Ideal ⟨1, ![256]⟩ .f32) (hx : ∀ i, IsReal (x i)) (hw : ∀ i, IsReal (w i)) (hb : ∀ i, IsReal (b i))
    (n : Fin 8) (s : Fin 2048) (f : Fin 256) : IsReal (proj x w b n s f) :=
  (isReal_sum Finset.univ _ fun d _ => (hx (ix3 n s d)).mul (hw (ix2 d f))).add (hb (ix1 f))

/-- A scaled score of real queries and keys is real. -/
theorem score_isReal (q k : Fin 8 → Fin 2048 → Fin 256 → EReal) (hq : ∀ n s f, IsReal (q n s f))
    (hk : ∀ n s f, IsReal (k n s f)) (n : Fin 8) (s t : Fin 2048) : IsReal (score q k n s t) := by
  unfold score
  rw [ofBits_sixteenth]
  exact (isReal_sum Finset.univ _ fun f _ => (hq n s f).mul (hk n t f)).mul (isReal_coe _)

/-- The largest of a row of real scores is real. -/
theorem rowMax_isReal (sc : Fin 2048 → EReal) (h : ∀ t, IsReal (sc t)) : IsReal (rowMax sc) := by
  unfold rowMax
  rw [ofBits_neg_inf]
  exact isReal_fold_max Finset.univ Finset.univ_nonempty sc fun t _ => h t

/-- Normalising each weight before the sum is the same as dividing the sum once. -/
theorem attend_eq_sum_div (sc v : Fin 2048 → EReal) (h : ∀ t, IsReal (sc t)) :
    attend sc v = ∑ t : Fin 2048, Ideal.div (wt sc t) (∑ u : Fin 2048, wt sc u) * v t :=
  (softmax_law sc (rowMax sc) h (rowMax_isReal sc h) v).symm

end Cert.Attn

end
-- ==== Proof.RefIsSpec.lean ====
/-
  The reference computes the attention function.

  The reference's arrangement (RefRead) differs from the specification's in three places, each closed here:
    * it divides the inner product by `sqrt 256` where the specification multiplies by 1/16 — equal for every
      extended real;
    * it takes one more `max` with -∞ after the fold from -∞, and starts the row total from the zero word — both no-ops;
    * it normalises every weight before the weighted sum of the values, where the specification divides the sum once —
      equal when the scores are real numbers, which they are when the two feature arrays and the query and key
      projections' weights and biases are. The value, output-projection and bias arrays are arbitrary.
-/
import proofs.«113775_j66692252172948_2_alg».proof.Proof.RefRead
import proofs.«113775_j66692252172948_2_alg».proof.Proof.AttnReal

noncomputable section

namespace Cert.Attn

open Idealize.ShloMosaic Idealize.ShloMosaic.ValueIdx Cert.ReferenceIdeal Cert.ReferenceIdeal.Gen Cert.AttnLaw

/-- Dividing by `sqrt 256` is multiplying by 1/16. -/
theorem refScore_eq (q k : Fin 8 → Fin 2048 → Fin 256 → EReal) : refScore q k = score q k := by
  funext n s t
  exact div_sqrt_256 _

/-- One more `max` with -∞ changes nothing. -/
theorem refMax_eq (sc : Fin 2048 → EReal) : refMax sc = rowMax sc := by
  unfold refMax rowMax
  rw [ofBits_neg_inf]
  exact max_eq_right bot_le

/-- For real queries and keys the reference's attended feature is the specification's. -/
theorem refCtx_eq (q k v : Fin 8 → Fin 2048 → Fin 256 → EReal) (hq : ∀ n s f, IsReal (q n s f))
    (hk : ∀ n s f, IsReal (k n s f)) (n : Fin 8) (s : Fin 2048) (f : Fin 256) :
    refCtx q k v n s f = ctx q k v n s f := by
  unfold refCtx ctx
  rw [attend_eq_sum_div _ _ (fun t => score_isReal q k hq hk n s t)]
  simp only [refScore_eq, refMax_eq, Ideal.ofBits_zero_f32, zero_add, wt]

/-- THE REFERENCE IS THE ATTENTION FUNCTION, when the arrays the scores depend on are real. -/
theorem ref_eq (x0 x1 : (⟨S8x2048x512, .f32⟩ : BufTy).Contents (Elt Ideal)) (x2 : (⟨S512x256, .f32⟩ : BufTy).Contents (Elt Ideal))
    (x3 : (⟨S256, .f32⟩ : BufTy).Contents (Elt Ideal)) (x4 : (⟨S512x256, .f32⟩ : BufTy).Contents (Elt Ideal))
    (x5 : (⟨S256, .f32⟩ : BufTy).Contents (Elt Ideal)) (x6 : (⟨S512x256, .f32⟩ : BufTy).Contents (Elt Ideal))
    (x7 : (⟨S256, .f32⟩ : BufTy).Contents (Elt Ideal)) (x8 : (⟨S256x256, .f32⟩ : BufTy).Contents (Elt Ideal))
    (x9 : (⟨S256, .f32⟩ : BufTy).Contents (Elt Ideal))
    (h0 : ∀ i, IsReal (x0 i)) (h1 : ∀ i, IsReal (x1 i)) (h2 : ∀ i, IsReal (x2 i)) (h3 : ∀ i, IsReal (x3 i))
    (h4 : ∀ i, IsReal (x4 i)) (h5 : ∀ i, IsReal (x5 i)) :
    Read.val_main_v31 (F := Ideal) x0 x1 x2 x3 x4 x5 x6 x7 x8 x9 = out x0 x1 x2 x3 x4 x5 x6 x7 x8 x9 := by
  funext i
  obtain ⟨n, s, g, rfl⟩ : ∃ (n : Fin 8) (s : Fin 2048) (g : Fin 256), i = ix3 n s g := ⟨i 0, i 1, i 2, eq_ix3 i⟩
  rw [ref_read, out_ix3]
  unfold refOutAt outAt
  simp only [refCtx_eq _ _ _ (proj_isReal x0 x2 x3 h0 h2 h3) (proj_isReal x1 x4 x5 h1 h4 h5)]

end Cert.Attn

end
-- ==== Proof.PreFinite.lean ====
/-
  Finiteness from the precondition.

  The precondition is, for each of the ten argument arrays, "every entry has absolute value below +∞", the ten
  verdicts and-ed together. On the extended reals the absolute value of `x` is `max x (-x)`, the word `0x7F800000`
  denotes `⊤`, and `max x (-x) < ⊤` leaves exactly the real numbers: `⊥` and `⊤` both have absolute value `⊤`.
  An "all" over an array is a reduction by `and` from 1; if it comes out 1, every entry's comparison was 1.
  Hence every entry of (the first six of) the arrays is a real number.
-/
import proofs.«113775_j66692252172948_2_alg».proof.Pre_finite_inputs
import proofs.«113775_j66692252172948_2_alg».proof.Proof.Gen.Pre_finite_inputs
import proofs.«113775_j66692252172948_2_alg».proof.Proof.LibSoftmaxLaw
import Idealize.ShloMosaic.Lib.ReduceAll
import Idealize.ShloMosaic.Lib.ValueIdx
import Idealize.ShloMosaic.PureOps.Ideal.Laws

noncomputable section

namespace Cert.Attn

open Idealize.ShloMosaic Idealize.ShloMosaic.ValueIdx
open Cert.AttnLaw
open Cert.Pre_finite_inputs (S8x2048x512 S512x256 S256 S256x256 S_)

/-! ### One entry -/

/-- The word `0x7F800000` (sign 0, exponent all ones, fraction 0) is +∞. -/
theorem ofBits_pos_inf : Ideal.ofBits .f32 0x7F800000#32 = (⊤ : EReal) := by
  simp [Ideal.ofBits, Ideal.ieee]

/-- An ordered "less than" comparison of extended reals that answers 1 is a strict inequality. -/
theorem lt_of_cmp_olt {a b : EReal} (h : Ideal.cmp .olt a b = 1#1) : a < b := by
  have h' : BitVec.ofBool (decide (a < b)) = 1#1 := h
  by_contra hn
  rw [decide_eq_false hn] at h'
  exact absurd h' (by decide)

/-- An extended real whose absolute value `max x (-x)` is below +∞ is a real number. -/
theorem isReal_of_abs_lt_inf (x : EReal)
    (h : Ideal.cmp .olt (max x (-x)) (Ideal.ofBits .f32 0x7F800000#32) = 1#1) : IsReal x := by
  rw [ofBits_pos_inf] at h
  have hlt : max x (-x) < ⊤ := lt_of_cmp_olt h
  induction x using EReal.rec with
  | bot =>
    rw [EReal.neg_bot, max_eq_right bot_le] at hlt
    exact absurd hlt (lt_irrefl _)
  | coe r => exact ⟨r, rfl⟩
  | top =>
    rw [max_eq_left le_top] at hlt
    exact absurd hlt (lt_irrefl _)

/-! ### One array -/

/-- The shape of a scalar has exactly one index. -/
instance : Subsingleton S_.Idx := ⟨fun a b => funext fun d => d.elim0⟩

/-- "All entries have absolute value below +∞" answered 1: every entry of the array is a real number. -/
theorem isReal_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ix0 = 1#1) (i : s.Idx) : IsReal (x i) :=
  isReal_of_abs_lt_inf (x i) (Host.reduce_andi_all _ _ hr hu ix0 e i)

/-! ### The precondition -/

/-- Under the precondition every entry of the first six argument arrays is a real number. -/
theorem isReal_of_pre [Cert.Pre_finite_inputs.Facts]
    (x0 x1 : FVec Ideal S8x2048x512 .f32) (x2 : FVec Ideal S512x256 .f32) (x3 : FVec Ideal S256 .f32)
    (x4 : FVec Ideal S512x256 .f32) (x5 : FVec Ideal S256 .f32) (x6 : FVec Ideal S512x256 .f32)
    (x7 : FVec Ideal S256 .f32) (x8 : FVec Ideal S256x256 .f32) (x9 : FVec Ideal S256 .f32)
    (h : Cert.Pre_finite_inputs.fn (F := Ideal) x0 x1 x2 x3 x4 x5 x6 x7 x8 x9 = fun _ => 1#1) :
    (∀ i, IsReal (x0 i)) ∧ (∀ i, IsReal (x1 i)) ∧ (∀ i, IsReal (x2 i)) ∧ (∀ i, IsReal (x3 i))
      ∧ (∀ i, IsReal (x4 i)) ∧ (∀ i, IsReal (x5 i)) := by
  have e := congrFun h ix0
  dsimp only [Cert.Pre_finite_inputs.fn, Cert.Pre_finite_inputs.fn_part1, Cert.Pre_finite_inputs.fn_part2,
    Idealize.ShloMosaic.andi] at e
  -- the ten verdicts are and-ed left to right: peel them from the last
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨isReal_of_all x0 _ _ _ h0, isReal_of_all x1 _ _ _ h1, isReal_of_all x2 _ _ _ h2,
    isReal_of_all x3 _ _ _ h3, isReal_of_all x4 _ _ _ h4, isReal_of_all x5 _ _ _ h5⟩

end Cert.Attn

end
-- ==== Proof.Claims.lean ====
/-
  The certificate's claims.  The three frames are the generated ones (the reference's is its run with the result
  dropped); nothing was rewritten between the kernel and its idealization; and at the extended reals both programs end
  with the attention layer `Cert.Attn.out` of the argument arrays: the kernel because its two regions compute the key and
  value projections and then, tile by tile, the row-wise attention formula; the reference because, on FINITE inputs,
  normalising every weight before the weighted sum equals dividing the sum once by the row's total weight, dividing by
  √256 equals multiplying by 1/16, and a maximum against -∞ is the identity.
-/
import proofs.«113775_j66692252172948_2_alg».proof.Defs
import proofs.«113775_j66692252172948_2_alg».proof.Proof.Gen.Kernel
import proofs.«113775_j66692252172948_2_alg».proof.Proof.Gen.Kernel.Frame
import proofs.«113775_j66692252172948_2_alg».proof.Proof.Gen.KernelIdeal
import proofs.«113775_j66692252172948_2_alg».proof.Proof.Gen.KernelIdeal.Frame
import proofs.«113775_j66692252172948_2_alg».proof.Proof.Gen.ReferenceIdeal
import proofs.«113775_j66692252172948_2_alg».proof.Proof.Gen.ReferenceIdeal.Run
import proofs.«113775_j66692252172948_2_alg».proof.Proof.Gen.ReferenceIdeal.Read
import proofs.«113775_j66692252172948_2_alg».proof.Proof.Gen.Pre_finite_inputs
import proofs.«113775_j66692252172948_2_alg».proof.Proof.KernelRun
import proofs.«113775_j66692252172948_2_alg».proof.Proof.KernelGlue
import proofs.«113775_j66692252172948_2_alg».proof.Proof.RefIsSpec
import proofs.«113775_j66692252172948_2_alg».proof.Proof.PreFinite

noncomputable section

namespace Cert.Proof.AttnClaims

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end at the attention layer of the (agreeing, finite) argument arrays. -/
theorem algebraic : Cert.algebraic_KernelIdeal_ReferenceIdeal := by
  intro m ρ m' ρ' hpre hagree
  refine ⟨fun c => Cert.Attn.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Glue.kernel_value m ρ c), (h c).2⟩)
      (Cert.KernelIdeal.Named.run (F := Ideal) m ρ)
  · refine (θ_run Cert.ReferenceIdeal.defs _ _).mono (fun _ h c => ⟨?_, (h c).2⟩)
      (Cert.ReferenceIdeal.Value.run (F := Ideal) m' ρ')
    obtain ⟨h0, h1, h2, h3, h4, h5⟩ := Cert.Attn.isReal_of_pre _ _ _ _ _ _ _ _ _ _ (hpre c)
    obtain ⟨a0, a1, a2, a3, a4, a5, a6, a7, a8, a9⟩ := hagree c
    rw [(h c).1, Cert.ReferenceIdeal.Read.val_main_v31_eq, a0, a1, a2, a3, a4, a5, a6, a7, a8, a9]
    exact Cert.Attn.ref_eq _ _ _ _ _ _ _ _ _ _ h0 h1 h2 h3 h4 h5

end Cert.Proof.AttnClaims

end
-- ==== Proof.lean ====
/-
  A single-head attention layer — three linear projections, scaled scores, a softmax over the 2048 keys, the weighted
  sum of the values and an output projection — computed by two tiled kernels, against the same layer written with
  whole-array operations.

  At the extended reals the two programs end with one function of the ten argument arrays (`Cert.Attn.out`,
  Proof/AttnSpec.lean).  The kernel side: the first kernel writes the key and value projections of the flattened
  second feature array, 2048 rows per grid point (Proof/KvRegion.lean); the second, for each batch entry and each
  half of the query rows, projects the queries, scores them against all keys, and stores
  `((Σ_t w_t · v_t) / Σ_t w_t) · Wfc + bfc` with `w_t = exp (score_t − row maximum)` (Proof/KernelPay.lean,
  Proof/AttnRegion.lean); the reshapes and format changes between them move no value (Proof/KernelGlue.lean).  The
  reference side: its operations read index by index (Proof/RefRead.lean) give the same formula except that every
  weight is divided by the row's total before the weighted sum, the scores are divided by √256 instead of multiplied
  by 1/16, and the row maximum is taken once more against -∞.  The last two are identities on every extended real;
  the first is an identity when the row's total weight is a positive real, which holds because finite inputs make every
  score, hence the row maximum and every exponent, a real number (Proof/LibSoftmaxLaw.lean, Proof/AttnReal.lean,
  Proof/RefIsSpec.lean, and Proof/PreFinite.lean for reading finiteness off the precondition).
-/
import proofs.«113775_j66692252172948_2_alg».proof.Defs
import proofs.«113775_j66692252172948_2_alg».proof.Proof.Gen.Kernel
import proofs.«113775_j66692252172948_2_alg».proof.Proof.Gen.Kernel.Skeleton
import proofs.«113775_j66692252172948_2_alg».proof.Proof.Gen.Kernel.Launch
import proofs.«113775_j66692252172948_2_alg».proof.Proof.Gen.Kernel.Points
import proofs.«113775_j66692252172948_2_alg».proof.Proof.Gen.Kernel.Frame
import proofs.«113775_j66692252172948_2_alg».proof.Proof.Gen.KernelIdeal
import proofs.«113775_j66692252172948_2_alg».proof.Proof.Gen.KernelIdeal.Skeleton
import proofs.«113775_j66692252172948_2_alg».proof.Proof.Gen.KernelIdeal.Launch
import proofs.«113775_j66692252172948_2_alg».proof.Proof.Gen.KernelIdeal.Points
import proofs.«113775_j66692252172948_2_alg».proof.Proof.Gen.KernelIdeal.Frame
import proofs.«113775_j66692252172948_2_alg».proof.Proof.Gen.ReferenceIdeal
import proofs.«113775_j66692252172948_2_alg».proof.Proof.Gen.ReferenceIdeal.Run
import proofs.«113775_j66692252172948_2_alg».proof.Proof.Gen.ReferenceIdeal.Read
import proofs.«113775_j66692252172948_2_alg».proof.Proof.Gen.Pre_finite_inputs
import proofs.«113775_j66692252172948_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    AttnClaims.frame_k, AttnClaims.frame_ki, AttnClaims.frame_ri, AttnClaims.preserves, AttnClaims.algebraic⟩

end Cert.Proof

end
